-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S1024x1536 : Shape := ⟨2, ![1024, 1536]⟩
abbrev S512x1024 : Shape := ⟨2, ![512, 1024]⟩
abbrev S1024 : Shape := ⟨1, ![1024]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S1024x1536 : S_.BroadcastsInDim S1024x1536 (![] : Fin 0 → Fin S1024x1536.rank)
  reducesTo_S1024x1536_S_d0_1 : S1024x1536.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x64x256x256 .f32) (main_arg1 : FVec F S1024x1536 .f32) (main_arg2 : FVec F S512x1024 .f32) (main_arg3 : FVec F S1024 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S1024x1536 .f32 := Host.absf main_arg1
  let main_cst_0 : FVec F S_ .f32 := constant S_ .f32 0x7F800000#32
  let main_v5 : FVec F S1024x1536 .f32 := broadcastInDim S1024x1536 ![] bcast_S_S1024x1536 main_cst_0
  let main_v6 : IVec S1024x1536 1 := cmpf .olt main_v4 main_v5
  let main_c_1 : IVec S_ 1 := constantI S_ 1 1#1
  let main_v7 : IVec S_ 1 := (fun x v => Host.reduce IntOp.andi x v reducesTo_S1024x1536_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x64x256x256 : Shape := ⟨4, ![8, 64, 256, 256]⟩
abbrev S1024x1536 : Shape := ⟨2, ![1024, 1536]⟩
abbrev S512x1024 : Shape := ⟨2, ![512, 1024]⟩
abbrev S1024 : Shape := ⟨1, ![1024]⟩
abbrev S8x64x8x32x8x32 : Shape := ⟨6, ![8, 64, 8, 32, 8, 32]⟩
abbrev S8x8x8x64x32x32 : Shape := ⟨6, ![8, 8, 8, 64, 32, 32]⟩
abbrev S512x64x32x32 : Shape := ⟨4, ![512, 64, 32, 32]⟩
abbrev S512x64x8x4x8x4 : Shape := ⟨6, ![512, 64, 8, 4, 8, 4]⟩
abbrev S512x8x8x4x4x64 : Shape := ⟨6, ![512, 8, 8, 4, 4, 64]⟩
abbrev S512x64x1024 : Shape := ⟨3, ![512, 64, 1024]⟩
abbrev S1x1024 : Shape := ⟨2, ![1, 1024]⟩
abbrev S16x64x1024 : Shape := ⟨3, ![16, 64, 1024]⟩
abbrev S1024x1024 : Shape := ⟨2, ![1024, 1024]⟩
abbrev S16x64x1536 : Shape := ⟨3, ![16, 64, 1536]⟩
abbrev S16x64x512 : Shape := ⟨3, ![16, 64, 512]⟩
abbrev S16x64x8x64 : Shape := ⟨4, ![16, 64, 8, 64]⟩
abbrev S16x8x64x64 : Shape := ⟨4, ![16, 8, 64, 64]⟩
abbrev S128x64x64 : Shape := ⟨3, ![128, 64, 64]⟩
abbrev S128x64 : Shape := ⟨2, ![128, 64]⟩
abbrev S128x64x1 : Shape := ⟨3, ![128, 64, 1]⟩
abbrev S1024x512 : Shape := ⟨2, ![1024, 512]⟩

abbrev nBuf : Space → Nat
  | .hbm => 21
  | .vmem => 7
  | .smem => 0
  | _ => 0

abbrev bufTy : (tb : Table) → Fin (tcTables nBuf tb) → BufTy
  | .hbm, ⟨0, _⟩ => ⟨S8x64x256x256, .f32⟩
  | .hbm, ⟨1, _⟩ => ⟨S1024x1536, .f32⟩
  | .hbm, ⟨2, _⟩ => ⟨S512x1024, .f32⟩
  | .hbm, ⟨3, _⟩ => ⟨S1024, .f32⟩
  | .hbm, ⟨4, _⟩ => ⟨S8x64x8x32x8x32, .f32⟩
  | .hbm, ⟨5, _⟩ => ⟨S8x8x8x64x32x32, .f32⟩
  | .hbm, ⟨6, _⟩ => ⟨S512x64x32x32, .f32⟩
  | .hbm, ⟨7, _⟩ => ⟨S512x64x8x4x8x4, .f32⟩
  | .hbm, ⟨8, _⟩ => ⟨S512x8x8x4x4x64, .f32⟩
  | .hbm, ⟨9, _⟩ => ⟨S512x64x1024, .f32⟩
  | .hbm, ⟨10, _⟩ => ⟨S512x64x1024, .bf16⟩
  | .hbm, ⟨11, _⟩ => ⟨S1024x1536, .bf16⟩
  | .hbm, ⟨12, _⟩ => ⟨S512x1024, .bf16⟩
  | .hbm, ⟨13, _⟩ => ⟨S1x1024, .f32⟩
  | .hbm, ⟨14, _⟩ => ⟨S512x64x1024, .f32⟩
  | .hbm, ⟨15, _⟩ => ⟨S512x8x8x4x4x64, .f32⟩
  | .hbm, ⟨16, _⟩ => ⟨S512x64x8x4x8x4, .f32⟩
  | .hbm, ⟨17, _⟩ => ⟨S512x64x32x32, .f32⟩
  | .hbm, ⟨18, _⟩ => ⟨S8x8x8x64x32x32, .f32⟩
  | .hbm, ⟨19, _⟩ => ⟨S8x64x8x32x8x32, .f32⟩
  | .hbm, ⟨20, _⟩ => ⟨S8x64x256x256, .f32⟩
  | .local _ .vmem, ⟨0, _⟩ => ⟨S16x64x1024, .bf16⟩
  | .local _ .vmem, ⟨1, _⟩ => ⟨S16x64x1024, .bf16⟩
  | .local _ .vmem, ⟨2, _⟩ => ⟨S1024x1536, .bf16⟩
  | .local _ .vmem, ⟨3, _⟩ => ⟨S512x1024, .bf16⟩
  | .local _ .vmem, ⟨4, _⟩ => ⟨S1x1024, .f32⟩
  | .local _ .vmem, ⟨5, _⟩ => ⟨S16x64x1024, .f32⟩
  | .local _ .vmem, ⟨6, _⟩ => ⟨S16x64x1024, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x64x256x256_S8x64x8x32x8x32 : S8x64x256x256.ShapeCasts S8x64x8x32x8x32
  transposes_S8x64x8x32x8x32_S8x8x8x64x32x32_0_2_4_1_3_5 : S8x64x8x32x8x32.Transposes [0, 2, 4, 1, 3, 5] S8x8x8x64x32x32
  shapeCasts_S8x8x8x64x32x32_S512x64x32x32 : S8x8x8x64x32x32.ShapeCasts S512x64x32x32
  shapeCasts_S512x64x32x32_S512x64x8x4x8x4 : S512x64x32x32.ShapeCasts S512x64x8x4x8x4
  transposes_S512x64x8x4x8x4_S512x8x8x4x4x64_0_2_4_3_5_1 : S512x64x8x4x8x4.Transposes [0, 2, 4, 3, 5, 1] S512x8x8x4x4x64
  shapeCasts_S512x8x8x4x4x64_S512x64x1024 : S512x8x8x4x4x64.ShapeCasts S512x64x1024
  bitsLt_bf16_f32 : FTy.bits .bf16 < FTy.bits .f32
  shapeCasts_S1024_S1x1024 : S1024.ShapeCasts S1x1024
  inb_S16x64x1024_S16x64x1024_0_0_0 : ∀ a, (![0, 0, 0] : Fin 3 → Nat) a + S16x64x1024.size a ≤ S16x64x1024.size a
  h_S16x64x1024 : 0 < S16x64x1024.numel
  shapeCasts_S16x64x1024_S16x64x1024 : S16x64x1024.ShapeCasts S16x64x1024
  shapeCasts_S16x64x1024_S1024x1024 : S16x64x1024.ShapeCasts S1024x1024
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  shapeCasts_S1024x1536_S16x64x1536 : S1024x1536.ShapeCasts S16x64x1536
  slices_S16x64x1536_o0_0_0_S16x64x512 : S16x64x1536.Slices ![0, 0, 0] S16x64x512
  slices_S16x64x1536_o0_0_512_S16x64x512 : S16x64x1536.Slices ![0, 0, 512] S16x64x512
  slices_S16x64x1536_o0_0_1024_S16x64x512 : S16x64x1536.Slices ![0, 0, 1024] S16x64x512
  shapeCasts_S16x64x512_S16x64x8x64 : S16x64x512.ShapeCasts S16x64x8x64
  transposes_S16x64x8x64_p0_2_1_3_S16x8x64x64 : S16x64x8x64.Transposes [0, 2, 1, 3] S16x8x64x64
  shapeCasts_S16x8x64x64_S128x64x64 : S16x8x64x64.ShapeCasts S128x64x64
  reduces_S128x64x64_S128x64 : S128x64x64.Reduces [2] S128x64
  shapeCasts_S128x64_S128x64x1 : S128x64.ShapeCasts S128x64x1
  broadcasts_S128x64x1_S128x64x64 : S128x64x1.Broadcasts S128x64x64
  shapeCasts_S128x64x64_S16x8x64x64 : S128x64x64.ShapeCasts S16x8x64x64
  transposes_S16x8x64x64_p0_2_1_3_S16x64x8x64 : S16x8x64x64.Transposes [0, 2, 1, 3] S16x64x8x64
  shapeCasts_S16x64x8x64_S16x64x512 : S16x64x8x64.ShapeCasts S16x64x512
  shapeCasts_S16x64x512_S1024x512 : S16x64x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S16x64x1024 : S1024x1024.ShapeCasts S16x64x1024
  shapeCasts_S512x64x1024_S512x8x8x4x4x64 : S512x64x1024.ShapeCasts S512x8x8x4x4x64
  transposes_S512x8x8x4x4x64_S512x64x8x4x8x4_0_5_1_3_2_4 : S512x8x8x4x4x64.Transposes [0, 5, 1, 3, 2, 4] S512x64x8x4x8x4
  shapeCasts_S512x64x8x4x8x4_S512x64x32x32 : S512x64x8x4x8x4.ShapeCasts S512x64x32x32
  shapeCasts_S512x64x32x32_S8x8x8x64x32x32 : S512x64x32x32.ShapeCasts S8x8x8x64x32x32
  transposes_S8x8x8x64x32x32_S8x64x8x32x8x32_0_3_1_4_2_5 : S8x8x8x64x32x32.Transposes [0, 3, 1, 4, 2, 5] S8x64x8x32x8x32
  shapeCasts_S8x64x8x32x8x32_S8x64x256x256 : S8x64x8x32x8x32.ShapeCasts S8x64x256x256
  dot_S1024x1024_S1024x1536_S1024x1536_1_0_0_1_n_n_wf : DotDims.WF S1024x1024 S1024x1536 S1024x1536 [1] [0] [0] [1] [] []
  dot_S128x64x64_S128x64x64_S128x64x64_2_2_1_1_0_0_wf : DotDims.WF S128x64x64 S128x64x64 S128x64x64 [2] [2] [1] [1] [0] [0]
  dot_S128x64x64_S128x64x64_S128x64x64_2_1_1_2_0_0_wf : DotDims.WF S128x64x64 S128x64x64 S128x64x64 [2] [1] [1] [2] [0] [0]
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x1024.size a ≤ S512x64x1024.size a
  hwx0_0 : ∀ i : grid0.Coords, EltTy.bits .bf16 = 32 ∨ (Rect.block (s := S512x64x1024) S16x64x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1536.size a ≤ S1024x1536.size a
  hwx0_1 : ∀ i : grid0.Coords, EltTy.bits .bf16 = 32 ∨ (Rect.block (s := S1024x1536) S1024x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x64x1024.size a ≤ S512x64x1024.size a
  hwx0_4 : ∀ i : grid0.Coords, EltTy.bits .f32 = 32 ∨ (Rect.block (s := S512x64x1024) S16x64x1024.size (cc0_transform_4 i) (hinb0_4 i)).WholeWords (EltTy.packing .f32)

variable [Facts₀]

def dot_S1024x1024_S1024x1536_S1024x1536_1_0_0_1_n_n : DotDims S1024x1024 S1024x1536 S1024x1536 where
  lhsContracting := [1]
  rhsContracting := [0]
  lhsNonContracting := [0]
  rhsNonContracting := [1]
  lhsBatch := []
  rhsBatch := []
  wf := dot_S1024x1024_S1024x1536_S1024x1536_1_0_0_1_n_n_wf
def dot_S128x64x64_S128x64x64_S128x64x64_2_2_1_1_0_0 : DotDims S128x64x64 S128x64x64 S128x64x64 where
  lhsContracting := [2]
  rhsContracting := [2]
  lhsNonContracting := [1]
  rhsNonContracting := [1]
  lhsBatch := [0]
  rhsBatch := [0]
  wf := dot_S128x64x64_S128x64x64_S128x64x64_2_2_1_1_0_0_wf
def dot_S128x64x64_S128x64x64_S128x64x64_2_1_1_2_0_0 : DotDims S128x64x64 S128x64x64 S128x64x64 where
  lhsContracting := [2]
  rhsContracting := [1]
  lhsNonContracting := [1]
  rhsNonContracting := [2]
  lhsBatch := [0]
  rhsBatch := [0]
  wf := dot_S128x64x64_S128x64x64_S128x64x64_2_1_1_2_0_0_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v6) S16x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S16x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S1024x1536 : Shape := ⟨2, ![1024, 1536]⟩
abbrev S512x1024 : Shape := ⟨2, ![512, 1024]⟩
abbrev S1024 : Shape := ⟨1, ![1024]⟩
abbrev S8x64x8x32x8x32 : Shape := ⟨6, ![8, 64, 8, 32, 8, 32]⟩
abbrev S8x8x8x64x32x32 : Shape := ⟨6, ![8, 8, 8, 64, 32, 32]⟩
abbrev S512x64x32x32 : Shape := ⟨4, ![512, 64, 32, 32]⟩
abbrev S512x64x8x4x8x4 : Shape := ⟨6, ![512, 64, 8, 4, 8, 4]⟩
abbrev S512x8x8x4x4x64 : Shape := ⟨6, ![512, 8, 8, 4, 4, 64]⟩
abbrev S512x64x1024 : Shape := ⟨3, ![512, 64, 1024]⟩
abbrev S512x64x1536 : Shape := ⟨3, ![512, 64, 1536]⟩
abbrev S512x64x512 : Shape := ⟨3, ![512, 64, 512]⟩
abbrev S512x64x8x64 : Shape := ⟨4, ![512, 64, 8, 64]⟩
abbrev S512x8x64x64 : Shape := ⟨4, ![512, 8, 64, 64]⟩
abbrev S_ : Shape := ⟨0, ![]⟩
abbrev S512x8x64 : Shape := ⟨3, ![512, 8, 64]⟩
abbrev S512x8x64x1 : Shape := ⟨4, ![512, 8, 64, 1]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S1024x1536, .f32⟩
  | .hbm, ⟨2, _⟩ => ⟨S512x1024, .f32⟩
  | .hbm, ⟨3, _⟩ => ⟨S1024, .f32⟩
  | .hbm, ⟨4, _⟩ => ⟨S8x64x8x32x8x32, .f32⟩
  | .hbm, ⟨5, _⟩ => ⟨S8x8x8x64x32x32, .f32⟩
  | .hbm, ⟨6, _⟩ => ⟨S512x64x32x32, .f32⟩
  | .hbm, ⟨7, _⟩ => ⟨S512x64x8x4x8x4, .f32⟩
  | .hbm, ⟨8, _⟩ => ⟨S512x8x8x4x4x64, .f32⟩
  | .hbm, ⟨9, _⟩ => ⟨S512x64x1024, .f32⟩
  | .hbm, ⟨10, _⟩ => ⟨S512x64x1536, .f32⟩
  | .hbm, ⟨11, _⟩ => ⟨S512x64x512, .f32⟩
  | .hbm, ⟨12, _⟩ => ⟨S512x64x512, .f32⟩
  | .hbm, ⟨13, _⟩ => ⟨S512x64x512, .f32⟩
  | .hbm, ⟨14, _⟩ => ⟨S512x64x8x64, .f32⟩
  | .hbm, ⟨15, _⟩ => ⟨S512x8x64x64, .f32⟩
  | .hbm, ⟨16, _⟩ => ⟨S512x64x8x64, .f32⟩
  | .hbm, ⟨17, _⟩ => ⟨S512x8x64x64, .f32⟩
  | .hbm, ⟨18, _⟩ => ⟨S512x64x8x64, .f32⟩
  | .hbm, ⟨19, _⟩ => ⟨S512x8x64x64, .f32⟩
  | .hbm, ⟨20, _⟩ => ⟨S512x8x64x64, .f32⟩
  | .hbm, ⟨21, _⟩ => ⟨S_, .f32⟩
  | .hbm, ⟨22, _⟩ => ⟨S512x8x64x64, .f32⟩
  | .hbm, ⟨23, _⟩ => ⟨S512x8x64x64, .f32⟩
  | .hbm, ⟨24, _⟩ => ⟨S_, .f32⟩
  | .hbm, ⟨25, _⟩ => ⟨S512x8x64, .f32⟩
  | .hbm, ⟨26, _⟩ => ⟨S_, .f32⟩
  | .hbm, ⟨27, _⟩ => ⟨S512x8x64, .f32⟩
  | .hbm, ⟨28, _⟩ => ⟨S512x8x64, .f32⟩
  | .hbm, ⟨29, _⟩ => ⟨S512x8x64x1, .f32⟩
  | .hbm, ⟨30, _⟩ => ⟨S512x8x64x64, .f32⟩
  | .hbm, ⟨31, _⟩ => ⟨S512x8x64x64, .f32⟩
  | .hbm, ⟨32, _⟩ => ⟨S512x8x64x64, .f32⟩
  | .hbm, ⟨33, _⟩ => ⟨S_, .f32⟩
  | .hbm, ⟨34, _⟩ => ⟨S512x8x64, .f32⟩
  | .hbm, ⟨35, _⟩ => ⟨S512x8x64x1, .f32⟩
  | .hbm, ⟨36, _⟩ => ⟨S512x8x64x64, .f32⟩
  | .hbm, ⟨37, _⟩ => ⟨S512x8x64x64, .f32⟩
  | .hbm, ⟨38, _⟩ => ⟨S512x8x64x64, .f32⟩
  | .hbm, ⟨39, _⟩ => ⟨S512x64x8x64, .f32⟩
  | .hbm, ⟨40, _⟩ => ⟨S512x64x512, .f32⟩
  | .hbm, ⟨41, _⟩ => ⟨S512x64x1024, .f32⟩
  | .hbm, ⟨42, _⟩ => ⟨S1x1x1024, .f32⟩
  | .hbm, ⟨43, _⟩ => ⟨S512x64x1024, .f32⟩
  | .hbm, ⟨44, _⟩ => ⟨S512x64x1024, .f32⟩
  | .hbm, ⟨45, _⟩ => ⟨S512x8x8x4x4x64, .f32⟩
  | .hbm, ⟨46, _⟩ => ⟨S512x64x8x4x8x4, .f32⟩
  | .hbm, ⟨47, _⟩ => ⟨S512x64x32x32, .f32⟩
  | .hbm, ⟨48, _⟩ => ⟨S8x8x8x64x32x32, .f32⟩
  | .hbm, ⟨49, _⟩ => ⟨S8x64x8x32x8x32, .f32⟩
  | .hbm, ⟨50, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]

class Facts₀ : Prop where
  shapeCasts_S8x64x256x256_S8x64x8x32x8x32 : S8x64x256x256.ShapeCasts S8x64x8x32x8x32
  transposes_S8x64x8x32x8x32_S8x8x8x64x32x32_0_2_4_1_3_5 : S8x64x8x32x8x32.Transposes [0, 2, 4, 1, 3, 5] S8x8x8x64x32x32
  shapeCasts_S8x8x8x64x32x32_S512x64x32x32 : S8x8x8x64x32x32.ShapeCasts S512x64x32x32
  shapeCasts_S512x64x32x32_S512x64x8x4x8x4 : S512x64x32x32.ShapeCasts S512x64x8x4x8x4
  transposes_S512x64x8x4x8x4_S512x8x8x4x4x64_0_2_4_3_5_1 : S512x64x8x4x8x4.Transposes [0, 2, 4, 3, 5, 1] S512x8x8x4x4x64
  shapeCasts_S512x8x8x4x4x64_S512x64x1024 : S512x8x8x4x4x64.ShapeCasts S512x64x1024
  slices_S512x64x1536_S512x64x512_0_0_0 : S512x64x1536.Slices ![0, 0, 0] S512x64x512
  slices_S512x64x1536_S512x64x512_0_0_512 : S512x64x1536.Slices ![0, 0, 512] S512x64x512
  slices_S512x64x1536_S512x64x512_0_0_1024 : S512x64x1536.Slices ![0, 0, 1024] S512x64x512
  shapeCasts_S512x64x512_S512x64x8x64 : S512x64x512.ShapeCasts S512x64x8x64
  transposes_S512x64x8x64_S512x8x64x64_0_2_1_3 : S512x64x8x64.Transposes [0, 2, 1, 3] S512x8x64x64
  bcast_S_S512x8x64x64 : S_.BroadcastsInDim S512x8x64x64 (![] : Fin 0 → Fin S512x8x64x64.rank)
  reducesTo_S512x8x64x64_S512x8x64_d3 : S512x8x64x64.ReducesTo [3] S512x8x64
  h_S_ : 0 < S_.numel
  bcast_S_S512x8x64 : S_.BroadcastsInDim S512x8x64 (![] : Fin 0 → Fin S512x8x64.rank)
  bcast_S512x8x64_S512x8x64x1_0_1_2 : S512x8x64.BroadcastsInDim S512x8x64x1 (![0, 1, 2] : Fin 3 → Fin S512x8x64x1.rank)
  bcast_S512x8x64x1_S512x8x64x64_0_1_2_3 : S512x8x64x1.BroadcastsInDim S512x8x64x64 (![0, 1, 2, 3] : Fin 4 → Fin S512x8x64x64.rank)
  transposes_S512x8x64x64_S512x64x8x64_0_2_1_3 : S512x8x64x64.Transposes [0, 2, 1, 3] S512x64x8x64
  shapeCasts_S512x64x8x64_S512x64x512 : S512x64x8x64.ShapeCasts S512x64x512
  bcast_S1024_S1x1x1024_2 : S1024.BroadcastsInDim S1x1x1024 (![2] : Fin 1 → Fin S1x1x1024.rank)
  bcast_S1x1x1024_S512x64x1024_0_1_2 : S1x1x1024.BroadcastsInDim S512x64x1024 (![0, 1, 2] : Fin 3 → Fin S512x64x1024.rank)
  shapeCasts_S512x64x1024_S512x8x8x4x4x64 : S512x64x1024.ShapeCasts S512x8x8x4x4x64
  transposes_S512x8x8x4x4x64_S512x64x8x4x8x4_0_5_1_3_2_4 : S512x8x8x4x4x64.Transposes [0, 5, 1, 3, 2, 4] S512x64x8x4x8x4
  shapeCasts_S512x64x8x4x8x4_S512x64x32x32 : S512x64x8x4x8x4.ShapeCasts S512x64x32x32
  shapeCasts_S512x64x32x32_S8x8x8x64x32x32 : S512x64x32x32.ShapeCasts S8x8x8x64x32x32
  transposes_S8x8x8x64x32x32_S8x64x8x32x8x32_0_3_1_4_2_5 : S8x8x8x64x32x32.Transposes [0, 3, 1, 4, 2, 5] S8x64x8x32x8x32
  shapeCasts_S8x64x8x32x8x32_S8x64x256x256 : S8x64x8x32x8x32.ShapeCasts S8x64x256x256
  dot_S512x64x1024_S1024x1536_S512x64x1536_2_0_01_1_n_n_wf : DotDims.WF S512x64x1024 S1024x1536 S512x64x1536 [2] [0] [0, 1] [1] [] []
  dot_S512x8x64x64_S512x8x64x64_S512x8x64x64_3_3_2_2_01_01_wf : DotDims.WF S512x8x64x64 S512x8x64x64 S512x8x64x64 [3] [3] [2] [2] [0, 1] [0, 1]
  dot_S512x8x64x64_S512x8x64x64_S512x8x64x64_3_2_2_3_01_01_wf : DotDims.WF S512x8x64x64 S512x8x64x64 S512x8x64x64 [3] [2] [2] [3] [0, 1] [0, 1]
  dot_S512x64x512_S512x1024_S512x64x1024_2_0_01_1_n_n_wf : DotDims.WF S512x64x512 S512x1024 S512x64x1024 [2] [0] [0, 1] [1] [] []

variable [Facts₀]

def dot_S512x64x1024_S1024x1536_S512x64x1536_2_0_01_1_n_n : DotDims S512x64x1024 S1024x1536 S512x64x1536 where
  lhsContracting := [2]
  rhsContracting := [0]
  lhsNonContracting := [0, 1]
  rhsNonContracting := [1]
  lhsBatch := []
  rhsBatch := []
  wf := dot_S512x64x1024_S1024x1536_S512x64x1536_2_0_01_1_n_n_wf
def dot_S512x8x64x64_S512x8x64x64_S512x8x64x64_3_3_2_2_01_01 : DotDims S512x8x64x64 S512x8x64x64 S512x8x64x64 where
  lhsContracting := [3]
  rhsContracting := [3]
  lhsNonContracting := [2]
  rhsNonContracting := [2]
  lhsBatch := [0, 1]
  rhsBatch := [0, 1]
  wf := dot_S512x8x64x64_S512x8x64x64_S512x8x64x64_3_3_2_2_01_01_wf
def dot_S512x8x64x64_S512x8x64x64_S512x8x64x64_3_2_2_3_01_01 : DotDims S512x8x64x64 S512x8x64x64 S512x8x64x64 where
  lhsContracting := [3]
  rhsContracting := [2]
  lhsNonContracting := [2]
  rhsNonContracting := [3]
  lhsBatch := [0, 1]
  rhsBatch := [0, 1]
  wf := dot_S512x8x64x64_S512x8x64x64_S512x8x64x64_3_2_2_3_01_01_wf
def dot_S512x64x512_S512x1024_S512x64x1024_2_0_01_1_n_n : DotDims S512x64x512 S512x1024 S512x64x1024 where
  lhsContracting := [2]
  rhsContracting := [0]
  lhsNonContracting := [0, 1]
  rhsNonContracting := [1]
  lhsBatch := []
  rhsBatch := []
  wf := dot_S512x64x512_S512x1024_S512x64x1024_2_0_01_1_n_n_wf

class Facts : Prop extends Facts₀ where

variable [Facts]
-- ==== Proof.KStages.lean ====
/-
  The block body's arithmetic, stage by stage.

  The body loads a block of 16 windows (1024 token rows), the two projections and the bias, and stores one value.
  That value is a composition of eight stages, each a short run of vector operations; they are named here one by
  one, over arbitrary operands, so that each can be read at an index on its own:
  `proj` (all rows × the first projection), `heads` (one block of 512 columns re-laid as 128 = 16·8 head
  matrices of 64 × 64), `scores` (scaled inner products), `expo` (exponential of the row-shifted scores),
  `weights` (normalised by the row sums), `context` (weights × values), `mergeHeads` (back to 1024 rows × 512
  columns), `outProj` (× the second projection) and `addBias`.  `payload_eq`: the stored value is their
  composition, by unfolding.
-/
import proofs.«114505_j8203387535714_2_alg».proof.Proof.Gen.KernelIdeal.Skeleton
import Idealize.ShloMosaic.PureOps.Ideal

noncomputable section

namespace Cert.KernelIdeal.Body

open Idealize.ShloMosaic Cert.KernelIdeal Cert.KernelIdeal.Gen

/-- Every token row of the block against the first projection: rows × 1536. -/
def proj (x0 : Vec Ideal S16x64x1024 .bf16) (x1 : Vec Ideal S1024x1536 .bf16) : FVec Ideal S1024x1536 .f32 :=
  have v1 : FVec Ideal S16x64x1024 .bf16 := shapeCast S16x64x1024 x0 shapeCasts_S16x64x1024_S16x64x1024
  have v2 : FVec Ideal S1024x1024 .bf16 := shapeCast S1024x1024 v1 shapeCasts_S16x64x1024_S1024x1024
  have v4 : FVec Ideal S1024x1536 .bf16 := shapeCast S1024x1536 x1 shapeCasts_S1024x1536_S1024x1536
  have cst : FVec Ideal S1024x1536 .f32 := constant S1024x1536 .f32 0x00000000#32
  matmul dot_S1024x1024_S1024x1536_S1024x1536_1_0_0_1_n_n none v2 v4 cst

/-- One block of 512 columns (from column `off 2`) of the projected rows, re-laid as 128 head matrices: entry
    (8·a + h, t, d) is row 64·a + t, column `off 2` + 64·h + d. -/
def heads (off : Fin 3 → Nat) (hs : S16x64x1536.Slices off S16x64x512) (v5 : FVec Ideal S1024x1536 .f32) : FVec Ideal S128x64x64 .bf16 :=
  have v6 : FVec Ideal S16x64x1536 .f32 := shapeCast S16x64x1536 v5 shapeCasts_S1024x1536_S16x64x1536
  have v7 : FVec Ideal S16x64x512 .f32 := extractStridedSlice S16x64x512 off v6 hs
  have v8 : FVec Ideal S16x64x512 .bf16 := truncf .bf16 v7 bitsLt_bf16_f32
  have v13 : FVec Ideal S16x64x8x64 .bf16 := shapeCast S16x64x8x64 v8 shapeCasts_S16x64x512_S16x64x8x64
  have v14 : FVec Ideal S16x8x64x64 .bf16 := transpose S16x8x64x64 [0, 2, 1, 3] v13 transposes_S16x64x8x64_p0_2_1_3_S16x8x64x64
  have v15 : FVec Ideal S128x64x64 .bf16 := shapeCast S128x64x64 v14 shapeCasts_S16x8x64x64_S128x64x64
  v15

/-- Scaled inner products of queries with keys, per head matrix. -/
def scores (qh kh : FVec Ideal S128x64x64 .bf16) : FVec Ideal S128x64x64 .f32 :=
  have cst_4 : FVec Ideal S128x64x64 .f32 := constant S128x64x64 .f32 0x00000000#32
  have v22 : FVec Ideal S128x64x64 .f32 := matmul dot_S128x64x64_S128x64x64_S128x64x64_2_2_1_1_0_0 none qh kh cst_4
  have cst_5 : Ideal .f32 := Scalar.ofBits .f32 0x3E000000#32
  have v23 : FVec Ideal S128x64x64 .f32 := broadcast S128x64x64 cst_5
  have v24 : FVec Ideal S128x64x64 .f32 := mulf v22 v23
  v24

/-- The exponential of each score less its row's maximum. -/
def expo (v24 : FVec Ideal S128x64x64 .f32) : FVec Ideal S128x64x64 .f32 :=
  have v25 : FVec Ideal S128x64 .f32 := multiReduction .maximumf [2] S128x64 v24 0xFF800000#32 reduces_S128x64x64_S128x64 (.inl rfl) rfl
  have v26 : FVec Ideal S128x64x1 .f32 := shapeCast S128x64x1 v25 shapeCasts_S128x64_S128x64x1
  have v27 : FVec Ideal S128x64x64 .f32 := broadcastTo S128x64x64 v26 broadcasts_S128x64x1_S128x64x64
  have v28 : FVec Ideal S128x64x64 .f32 := subf v24 v27
  have v29 : FVec Ideal S128x64x64 .f32 := exp v28
  v29

/-- Each exponential over its row's sum. -/
def weights (v29 : FVec Ideal S128x64x64 .f32) : FVec Ideal S128x64x64 .bf16 :=
  have v30 : FVec Ideal S128x64 .f32 := multiReduction .add [2] S128x64 v29 0x00000000#32 reduces_S128x64x64_S128x64 (.inl rfl) rfl
  have v31 : FVec Ideal S128x64x1 .f32 := shapeCast S128x64x1 v30 shapeCasts_S128x64_S128x64x1
  have v32 : FVec Ideal S128x64x64 .f32 := broadcastTo S128x64x64 v31 broadcasts_S128x64x1_S128x64x64
  have v33 : FVec Ideal S128x64x64 .f32 := divf v29 v32
  have v34 : FVec Ideal S128x64x64 .bf16 := truncf .bf16 v33 bitsLt_bf16_f32
  v34

/-- Weights × values, per head matrix. -/
def context (p vh : FVec Ideal S128x64x64 .bf16) : FVec Ideal S128x64x64 .f32 :=
  have cst_8 : FVec Ideal S128x64x64 .f32 := constant S128x64x64 .f32 0x00000000#32
  have v35 : FVec Ideal S128x64x64 .f32 := matmul dot_S128x64x64_S128x64x64_S128x64x64_2_1_1_2_0_0 none p vh cst_8
  v35

/-- The 128 head matrices back to 1024 rows × 512 columns: row 64·a + t, column 64·h + d is entry (8·a + h, t, d). -/
def mergeHeads (v35 : FVec Ideal S128x64x64 .f32) : FVec Ideal S1024x512 .bf16 :=
  have v36 : FVec Ideal S16x8x64x64 .f32 := shapeCast S16x8x64x64 v35 shapeCasts_S128x64x64_S16x8x64x64
  have v37 : FVec Ideal S16x64x8x64 .f32 := transpose S16x64x8x64 [0, 2, 1, 3] v36 transposes_S16x8x64x64_p0_2_1_3_S16x64x8x64
  have v38 : FVec Ideal S16x64x512 .f32 := shapeCast S16x64x512 v37 shapeCasts_S16x64x8x64_S16x64x512
  have v39 : FVec Ideal S16x64x512 .bf16 := truncf .bf16 v38 bitsLt_bf16_f32
  have v40 : FVec Ideal S1024x512 .bf16 := shapeCast S1024x512 v39 shapeCasts_S16x64x512_S1024x512
  v40

/-- The merged rows against the second projection. -/
def outProj (v40 : FVec Ideal S1024x512 .bf16) (x2 : Vec Ideal S512x1024 .bf16) : FVec Ideal S1024x1024 .f32 :=
  have v42 : FVec Ideal S512x1024 .bf16 := shapeCast S512x1024 x2 shapeCasts_S512x1024_S512x1024
  have cst_11 : FVec Ideal S1024x1024 .f32 := constant S1024x1024 .f32 0x00000000#32
  have v43 : FVec Ideal S1024x1024 .f32 := matmul dot_S1024x512_S512x1024_S1024x1024_1_0_0_1_n_n none v40 v42 cst_11
  v43

/-- The bias row added to every row, and the rows regrouped by window. -/
def addBias (v43 : FVec Ideal S1024x1024 .f32) (x3 : Vec Ideal S1x1024 .f32) : FVec Ideal S16x64x1024 .f32 :=
  have v45 : FVec Ideal S1x1024 .f32 := shapeCast S1x1024 x3 shapeCasts_S1x1024_S1x1024
  have v46 : FVec Ideal S1024x1024 .f32 := broadcastTo S1024x1024 v45 broadcasts_S1x1024_S1024x1024
  have v47 : FVec Ideal S1024x1024 .f32 := addf v43 v46
  have v48 : FVec Ideal S16x64x1024 .f32 := shapeCast S16x64x1024 v47 shapeCasts_S1024x1024_S16x64x1024
  v48

/-- The three blocks of columns the heads are cut from. -/
abbrev offQ : Fin 3 → Nat := ![0, 0, 0]
abbrev offK : Fin 3 → Nat := ![0, 0, 512]
abbrev offV : Fin 3 → Nat := ![0, 0, 1024]

/-- What the body stores, from what it loads: the stages composed. -/
def stored (x0 : Vec Ideal S16x64x1024 .bf16) (x1 : Vec Ideal S1024x1536 .bf16) (x2 : Vec Ideal S512x1024 .bf16) (x3 : Vec Ideal S1x1024 .f32) :
    FVec Ideal S16x64x1024 .f32 :=
  addBias
    (outProj
      (mergeHeads
        (context
          (weights (expo (scores (heads offQ slices_S16x64x1536_o0_0_0_S16x64x512 (proj x0 x1)) (heads offK slices_S16x64x1536_o0_0_512_S16x64x512 (proj x0 x1)))))
          (heads offV slices_S16x64x1536_o0_0_1024_S16x64x512 (proj x0 x1))))
      x2)
    x3

/-- The body's stored value is that composition. -/
theorem payload_eq (x0 : Vec Ideal S16x64x1024 .bf16) (x1 : Vec Ideal S1024x1536 .bf16) (x2 : Vec Ideal S512x1024 .bf16) (x3 : Vec Ideal S1x1024 .f32) :
    k0_pay1 (k0_pay2 x0 x1 x2) x3 = stored x0 x1 x2 x3 := rfl

end Cert.KernelIdeal.Body

end
-- ==== Proof.Spec.lean ====
/-
  Windowed multi-head attention, one window at a time, on the extended reals.

  A window is 64 tokens of 1024 features, `X t d`.  One projection `W` (1024 × 1536) gives, for each token, the
  queries, keys and values of 8 heads of width 64: column `64·h + d` of the first, second and third block of 512
  columns.  Per head the logits are the scaled inner products of a query with every key, the attention weights are
  their softmax — taken with the row's largest logit subtracted inside the exponential —, the context is the
  weighted sum of the values, and the output is the heads' contexts side by side (column `64·h + d`), projected by
  `Wo` (512 × 1024) and shifted by `bias`.

  Nothing here is specific to a program: every array is a plain function of coordinates, every sum a `Finset` sum
  over `Fin n`, the largest logit a fold of `max` from the word of −∞.
-/
import Idealize.ShloMosaic.PureOps.Ideal
import Mathlib.Algebra.BigOperators.Fin

noncomputable section

namespace Cert.Attn

open Idealize.ShloMosaic

/-- The logits' scale, the f32 word of 1/8 (the inverse square root of the head width 64). -/
abbrev scale : EReal := Ideal.ofBits .f32 0x3E000000#32

/-- The value a row's maximum is folded from: the f32 word of −∞. -/
abbrev negInf : EReal := Ideal.ofBits .f32 0xFF800000#32

/-- Column `o + 64·h + d` of the projected tokens: head `h`'s coordinate `d` in the block of 512 columns starting at `o`. -/
def col (o : Nat) (ho : o + 512 ≤ 1536) (h : Fin 8) (d : Fin 64) : Fin 1536 :=
  ⟨o + 64 * h.val + d.val, by have := h.isLt; have := d.isLt; omega⟩

/-- The head a merged column belongs to, and its coordinate inside the head. -/
def headOf (e : Fin 512) : Fin 8 := ⟨e.val / 64, by have := e.isLt; omega⟩
def coordOf (e : Fin 512) : Fin 64 := ⟨e.val % 64, Nat.mod_lt _ (by omega)⟩

/-- A block of 16 windows laid out flat: row `64·a + t` is token `t` of window `a`, and batch entry `8·a + h` is head
    `h` of window `a`. -/
def rowIx (a : Fin 16) (t : Fin 64) : Fin 1024 := ⟨64 * a.val + t.val, by have := a.isLt; have := t.isLt; omega⟩
def batIx (a : Fin 16) (h : Fin 8) : Fin 128 := ⟨8 * a.val + h.val, by have := a.isLt; have := h.isLt; omega⟩

variable (X : Fin 64 → Fin 1024 → EReal) (W : Fin 1024 → Fin 1536 → EReal)
  (Wo : Fin 512 → Fin 1024 → EReal) (bias : Fin 1024 → EReal)

/-- The projected tokens: queries, keys and values side by side. -/
def qkv (t : Fin 64) (e : Fin 1536) : EReal := ∑ d : Fin 1024, X t d * W d e

/-- Head `h`'s scaled logit of query token `t` against key token `k`. -/
def logit (h : Fin 8) (t k : Fin 64) : EReal :=
  (∑ d : Fin 64, qkv X W t (col 0 (by omega) h d) * qkv X W k (col 512 (by omega) h d)) * scale

/-- The largest logit of a query's row. -/
def rowMax (h : Fin 8) (t : Fin 64) : EReal :=
  (Finset.univ : Finset (Fin 64)).fold max negInf (fun k => logit X W h t k)

/-- The shifted exponential of a logit. -/
def num (h : Fin 8) (t k : Fin 64) : EReal := Ideal.exp (logit X W h t k - rowMax X W h t)

/-- The row's normaliser. -/
def den (h : Fin 8) (t : Fin 64) : EReal := ∑ k : Fin 64, num X W h t k

/-- The attention weight of key `k` for query `t`. -/
def prob (h : Fin 8) (t k : Fin 64) : EReal := Ideal.div (num X W h t k) (den X W h t)

/-- Head `h`'s context for token `t`, coordinate `d`: the weighted sum of the values. -/
def ctx (h : Fin 8) (t : Fin 64) (d : Fin 64) : EReal :=
  ∑ k : Fin 64, prob X W h t k * qkv X W k (col 1024 (by omega) h d)

/-- The heads' contexts side by side: column `e` is head `e / 64`, coordinate `e % 64`. -/
def merged (t : Fin 64) (e : Fin 512) : EReal := ctx X W (headOf e) t (coordOf e)

/-- The window's output: the merged contexts projected by `Wo`, plus the bias. -/
def win (t : Fin 64) (j : Fin 1024) : EReal := (∑ e : Fin 512, merged X W t e * Wo e j) + bias j

end Cert.Attn

end
-- ==== Proof.KFront.lean ====
/-
  The first five stages of the block body, each read at an index: the projected rows, the head matrices cut from a
  block of columns, the scaled scores, the exponentials of the row-shifted scores, and the weights.
-/
import proofs.«114505_j8203387535714_2_alg».proof.Proof.KStages
import proofs.«114505_j8203387535714_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.KernelIdeal.Body

open Idealize.ShloMosaic Idealize.ShloMosaic.ValueIdx Cert.KernelIdeal Cert.KernelIdeal.Gen Cert.Attn

/-- The projection's dimension numbers: rows × contraction times contraction × columns, no batch axis. -/
private abbrev dProj := dot_S1024x1024_S1024x1536_S1024x1536_1_0_0_1_n_n

private theorem dProj_lhs0 (i : S1024x1536.Idx) (q : dProj.contr.Idx) : (dProj.lhsIdx i q 0).val = (i 0).val := by
  unfold DotDims.lhsIdx
  rw [dif_neg (show ¬(0 : Fin S1024x1024.rank) ∈ dProj.lhsBatch by decide), dif_pos (show (0 : Fin S1024x1024.rank) ∈ dProj.lhsNonContracting by decide)]
  rfl
private theorem dProj_lhs1 (i : S1024x1536.Idx) (q : dProj.contr.Idx) : (dProj.lhsIdx i q 1).val = (q ⟨0, by decide⟩).val :=
  dProj.lhsIdx_val_of_single rfl i q
private theorem dProj_rhs0 (i : S1024x1536.Idx) (q : dProj.contr.Idx) : (dProj.rhsIdx i q 0).val = (q ⟨0, by decide⟩).val :=
  dProj.rhsIdx_val_of_single rfl i q
private theorem dProj_rhs1 (i : S1024x1536.Idx) (q : dProj.contr.Idx) : (dProj.rhsIdx i q 1).val = (i 1).val := by
  unfold DotDims.rhsIdx
  rw [dif_neg (show ¬(1 : Fin S1024x1536.rank) ∈ dProj.rhsBatch by decide), dif_pos (show (1 : Fin S1024x1536.rank) ∈ dProj.rhsNonContracting by decide)]
  rfl

/-- Row 64·a + t of the projected block is token `t` of window `a` against the projection's column. -/
theorem proj_apply (x0 : Vec Ideal S16x64x1024 .bf16) (x1 : Vec Ideal S1024x1536 .bf16) (a : Fin 16) (t : Fin 64) (e : Fin 1536) :
    proj x0 x1 (ix2 (rowIx a t) e) = ∑ d : Fin 1024, x0 (ix3 a t d) * x1 (ix2 d e) := by
  unfold proj
  refine (Ideal.matmul_constant_zero_apply dProj none _ _ (ix2 (rowIx a t) e)).trans ?_
  rw [← Equiv.sum_comp (contrEquiv1 dProj 1024 rfl rfl).symm]
  refine Finset.sum_congr rfl fun d _ => ?_
  have hk := contrEquiv1_symm_val dProj 1024 rfl rfl d
  have el : dProj.lhsIdx (ix2 (rowIx a t) e) ((contrEquiv1 dProj 1024 rfl rfl).symm d) = ix2 (rowIx a t) d := funext fun c => Fin.ext (by
    match c with
    | ⟨0, _⟩ => exact dProj_lhs0 _ _
    | ⟨1, _⟩ => exact (dProj_lhs1 _ _).trans hk)
  have er : dProj.rhsIdx (ix2 (rowIx a t) e) ((contrEquiv1 dProj 1024 rfl rfl).symm d) = ix2 d e := funext fun c => Fin.ext (by
    match c with
    | ⟨0, _⟩ => exact (dProj_rhs0 _ _).trans hk
    | ⟨1, _⟩ => exact dProj_rhs1 _ _)
  rw [el, er]
  -- the left factor: [16, 64, 1024] → [1024, 1024], row 64·a + t reads (a, t, ·); the casts to the same shape are the identity
  refine congrArg₂ (· * ·) ?_ ?_
  · refine (shapeCast_apply _ shapeCasts_S16x64x1024_S1024x1024 (ix2 (rowIx a t) d) (ix3 a t d)
      (by rw [Shape.rowMajor_val_three, Shape.rowMajor_val_two]
          show (a.val * 64 + t.val) * 1024 + d.val = (64 * a.val + t.val) * 1024 + d.val
          omega)).trans ?_
    rw [shapeCast_self]
  · rw [shapeCast_self]

/-- Head matrix 8·a + h of the block of columns starting at `o`: entry (t, d) is row 64·a + t, column o + 64·h + d. -/
theorem heads_apply (o : Nat) (ho : o + 512 ≤ 1536) (hs : S16x64x1536.Slices ![0, 0, o] S16x64x512) (v5 : FVec Ideal S1024x1536 .f32)
    (a : Fin 16) (h : Fin 8) (t d : Fin 64) :
    heads ![0, 0, o] hs v5 (ix3 (batIx a h) t d) = v5 (ix2 (rowIx a t) (col o ho h d)) := by
  have ha : a.val < 16 := a.isLt
  have hh : h.val < 8 := h.isLt
  have ht : t.val < 64 := t.isLt
  have hd : d.val < 64 := d.isLt
  unfold heads
  -- [16, 8, 64, 64] → [128, 64, 64]: entry (8·a + h, t, d) reads (a, h, t, d)
  refine (shapeCast_apply _ shapeCasts_S16x8x64x64_S128x64x64 (ix3 (batIx a h) t d) (ix4 a h t d)
    (by rw [Shape.rowMajor_val_four, Shape.rowMajor_val_three]
        show ((a.val * 8 + h.val) * 64 + t.val) * 64 + d.val = ((8 * a.val + h.val) * 64 + t.val) * 64 + d.val
        omega)).trans ?_
  -- the transpose [0, 2, 1, 3]: (a, h, t, d) reads (a, t, h, d)
  refine (transpose_apply _ _ transposes_S16x64x8x64_p0_2_1_3_S16x8x64x64 (ix4 a h t d) (ix4 a t h d)
    (fun b => match b with | ⟨0, _⟩ => rfl | ⟨1, _⟩ => rfl | ⟨2, _⟩ => rfl | ⟨3, _⟩ => rfl)).trans ?_
  -- [16, 64, 512] → [16, 64, 8, 64]: (a, t, h, d) reads (a, t, 64·h + d)
  refine (shapeCast_apply _ shapeCasts_S16x64x512_S16x64x8x64 (ix4 a t h d) (ix3 a t (⟨64 * h.val + d.val, by omega⟩ : Fin 512))
    (by rw [Shape.rowMajor_val_three, Shape.rowMajor_val_four]
        show (a.val * 64 + t.val) * 512 + (64 * h.val + d.val) = ((a.val * 64 + t.val) * 8 + h.val) * 64 + d.val
        omega)).trans ?_
  -- the format change is the identity; the slice at (0, 0, o): (a, t, c) reads (a, t, o + c)
  refine (truncf_apply _ bitsLt_bf16_f32 _).trans ?_
  refine (extractStridedSlice_apply ![0, 0, o] _ hs (ix3 a t (⟨64 * h.val + d.val, by omega⟩ : Fin 512))
    (ix3 a t (⟨o + 64 * h.val + d.val, by omega⟩ : Fin 1536))
    (fun c => match c with
      | ⟨0, _⟩ => by show a.val = 0 + a.val; omega
      | ⟨1, _⟩ => by show t.val = 0 + t.val; omega
      | ⟨2, _⟩ => by show o + 64 * h.val + d.val = o + (64 * h.val + d.val); omega)).trans ?_
  -- [1024, 1536] → [16, 64, 1536]: (a, t, c) reads (64·a + t, c)
  exact shapeCast_apply _ shapeCasts_S1024x1536_S16x64x1536 (ix3 a t (⟨o + 64 * h.val + d.val, by omega⟩ : Fin 1536))
    (ix2 (rowIx a t) (col o ho h d))
    (by rw [Shape.rowMajor_val_two, Shape.rowMajor_val_three]
        show (64 * a.val + t.val) * 1536 + (o + 64 * h.val + d.val) = (a.val * 64 + t.val) * 1536 + (o + 64 * h.val + d.val)
        omega)

/-- The score product's dimension numbers: batch axis 0, rows on axis 1, both operands contracted on axis 2. -/
private abbrev dQK := dot_S128x64x64_S128x64x64_S128x64x64_2_2_1_1_0_0

private theorem dQK_lhs0 (i : S128x64x64.Idx) (q : dQK.contr.Idx) : (dQK.lhsIdx i q 0).val = (i 0).val := by
  unfold DotDims.lhsIdx
  rw [dif_pos (show (0 : Fin S128x64x64.rank) ∈ dQK.lhsBatch by decide)]
  rfl
private theorem dQK_lhs1 (i : S128x64x64.Idx) (q : dQK.contr.Idx) : (dQK.lhsIdx i q 1).val = (i 1).val := by
  unfold DotDims.lhsIdx
  rw [dif_neg (show ¬(1 : Fin S128x64x64.rank) ∈ dQK.lhsBatch by decide), dif_pos (show (1 : Fin S128x64x64.rank) ∈ dQK.lhsNonContracting by decide)]
  rfl
private theorem dQK_lhs2 (i : S128x64x64.Idx) (q : dQK.contr.Idx) : (dQK.lhsIdx i q 2).val = (q ⟨0, by decide⟩).val :=
  dQK.lhsIdx_val_of_single rfl i q
private theorem dQK_rhs0 (i : S128x64x64.Idx) (q : dQK.contr.Idx) : (dQK.rhsIdx i q 0).val = (i 0).val := by
  unfold DotDims.rhsIdx
  rw [dif_pos (show (0 : Fin S128x64x64.rank) ∈ dQK.rhsBatch by decide)]
  rfl
private theorem dQK_rhs1 (i : S128x64x64.Idx) (q : dQK.contr.Idx) : (dQK.rhsIdx i q 1).val = (i 2).val := by
  unfold DotDims.rhsIdx
  rw [dif_neg (show ¬(1 : Fin S128x64x64.rank) ∈ dQK.rhsBatch by decide), dif_pos (show (1 : Fin S128x64x64.rank) ∈ dQK.rhsNonContracting by decide)]
  rfl
private theorem dQK_rhs2 (i : S128x64x64.Idx) (q : dQK.contr.Idx) : (dQK.rhsIdx i q 2).val = (q ⟨0, by decide⟩).val :=
  dQK.rhsIdx_val_of_single rfl i q

/-- A score is the scaled inner product of the query row with the key row. -/
theorem scores_apply (qh kh : FVec Ideal S128x64x64 .bf16) (b : Fin 128) (t k : Fin 64) :
    scores qh kh (ix3 b t k) = (∑ d : Fin 64, qh (ix3 b t d) * kh (ix3 b k d)) * scale := by
  show (FloatOps.matmul dQK none qh kh (constant S128x64x64 .f32 0x00000000#32)) (ix3 b t k) * scale = _
  refine congrArg (· * scale) ?_
  rw [Ideal.matmul_constant_zero_apply, ← Equiv.sum_comp (contrEquiv1 dQK 64 rfl rfl).symm]
  refine Finset.sum_congr rfl fun d _ => ?_
  have hk := contrEquiv1_symm_val dQK 64 rfl rfl d
  have el : dQK.lhsIdx (ix3 b t k) ((contrEquiv1 dQK 64 rfl rfl).symm d) = ix3 b t d := funext fun a => Fin.ext (by
    match a with
    | ⟨0, _⟩ => exact dQK_lhs0 _ _
    | ⟨1, _⟩ => exact dQK_lhs1 _ _
    | ⟨2, _⟩ => exact (dQK_lhs2 _ _).trans hk)
  have er : dQK.rhsIdx (ix3 b t k) ((contrEquiv1 dQK 64 rfl rfl).symm d) = ix3 b k d := funext fun a => Fin.ext (by
    match a with
    | ⟨0, _⟩ => exact dQK_rhs0 _ _
    | ⟨1, _⟩ => exact dQK_rhs1 _ _
    | ⟨2, _⟩ => exact (dQK_rhs2 _ _).trans hk)
  rw [el, er]

/-- Over row (b, t) of a [128, 64, 64] block, the index with coordinate `k` put back on the reduced last axis. -/
private theorem lift_row (b : Fin 128) (t k : Fin 64) :
    reduces_S128x64x64_S128x64.lift (ix2 b t) k = ix3 b t k := funext fun a => Fin.ext (by
  match a with
  | ⟨0, _⟩ => rfl
  | ⟨1, _⟩ => rfl
  | ⟨2, _⟩ => rfl)

/-- A row statistic kept as a unit column and spread back along the row: entry (b, t, k) reads the statistic at (b, t). -/
private theorem keepdims_apply (r : FVec Ideal S128x64 .f32) (b : Fin 128) (t k : Fin 64) :
    broadcastTo S128x64x64 (shapeCast S128x64x1 r shapeCasts_S128x64_S128x64x1) broadcasts_S128x64x1_S128x64x64 (ix3 b t k)
      = r (ix2 b t) := by
  refine (broadcastTo_apply _ broadcasts_S128x64x1_S128x64x64 (ix3 b t k) (ix3 b t (0 : Fin 1))
    (fun a => match a with | ⟨0, _⟩ => rfl | ⟨1, _⟩ => rfl | ⟨2, _⟩ => rfl)).trans ?_
  refine shapeCast_apply _ shapeCasts_S128x64_S128x64x1 (ix3 b t (0 : Fin 1)) (ix2 b t) ?_
  rw [Shape.rowMajor_val_two, Shape.rowMajor_val_three]
  show b.val * 64 + t.val = (b.val * 64 + t.val) * 1 + 0
  omega

/-- The exponential of a score less the largest score of its row. -/
theorem expo_apply (v24 : FVec Ideal S128x64x64 .f32) (b : Fin 128) (t k : Fin 64) :
    expo v24 (ix3 b t k)
      = Ideal.exp (v24 (ix3 b t k) - (Finset.univ : Finset (Fin 64)).fold max negInf (fun k' => v24 (ix3 b t k'))) := by
  show Ideal.exp (v24 (ix3 b t k) - broadcastTo S128x64x64 (shapeCast S128x64x1 _ shapeCasts_S128x64_S128x64x1) broadcasts_S128x64x1_S128x64x64 (ix3 b t k)) = _
  refine congrArg (fun m => Ideal.exp (v24 (ix3 b t k) - m)) ?_
  refine (keepdims_apply _ b t k).trans ?_
  refine (Ideal.multiReduction_maximumf_single v24 _ reduces_S128x64x64_S128x64 _ _ (ix2 b t)).trans ?_
  refine congrArg (fun f => (Finset.univ : Finset (Fin 64)).fold max negInf f) ?_
  exact funext fun k' => congrArg v24 (lift_row b t k')

/-- An exponential over the sum of its row. -/
theorem weights_apply (v29 : FVec Ideal S128x64x64 .f32) (b : Fin 128) (t k : Fin 64) :
    weights v29 (ix3 b t k) = Ideal.div (v29 (ix3 b t k)) (∑ k' : Fin 64, v29 (ix3 b t k')) := by
  show Ideal.div (v29 (ix3 b t k)) (broadcastTo S128x64x64 (shapeCast S128x64x1 _ shapeCasts_S128x64_S128x64x1) broadcasts_S128x64x1_S128x64x64 (ix3 b t k)) = _
  refine congrArg (Ideal.div _) ?_
  refine (keepdims_apply _ b t k).trans ?_
  refine (Ideal.multiReduction_add_single v29 _ reduces_S128x64x64_S128x64 _ _ (ix2 b t)).trans ?_
  exact Finset.sum_congr rfl fun k' _ => congrArg v29 (lift_row b t k')

end Cert.KernelIdeal.Body

end
-- ==== Proof.KBack.lean ====
/-
  The last four stages of the block body read at an index: the weights against the values (`context_apply`), the head
  matrices re-laid as rows (`mergeHeads_apply`), the output projection (`outProj_apply`) and the bias with the
  regrouping of the rows by window (`addBias_apply`).

  A product into the zero accumulator is the sum, over the one contracted axis, of the operands' products; the sum
  over the contraction's index set is re-indexed to a sum over `Fin n`, and the operands' indices are computed
  coordinate by coordinate.  A re-laying (shape cast, transpose, broadcast) reads the operand at one index, named
  here by its coordinates, with the row-major positions compared as natural numbers.
-/
import proofs.«114505_j8203387535714_2_alg».proof.Proof.KStages
import proofs.«114505_j8203387535714_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Attn

/-! ## Weights × values: one batch axis, the left's axis 2 contracted with the right's axis 1 -/

/-- The dimension numbers of weights × values. -/
abbrev dotCtx : DotDims S128x64x64 S128x64x64 S128x64x64 := dot_S128x64x64_S128x64x64_S128x64x64_2_1_1_2_0_0

theorem dotCtx_lhs_0 (i : S128x64x64.Idx) (q : dotCtx.contr.Idx) : (dotCtx.lhsIdx i q 0).val = (i 0).val := by
  unfold DotDims.lhsIdx
  rw [dif_pos (show (0 : Fin S128x64x64.rank) ∈ dotCtx.lhsBatch by decide)]
  rfl
theorem dotCtx_lhs_1 (i : S128x64x64.Idx) (q : dotCtx.contr.Idx) : (dotCtx.lhsIdx i q 1).val = (i 1).val := by
  unfold DotDims.lhsIdx
  rw [dif_neg (show ¬(1 : Fin S128x64x64.rank) ∈ dotCtx.lhsBatch by decide), dif_pos (show (1 : Fin S128x64x64.rank) ∈ dotCtx.lhsNonContracting by decide)]
  rfl
theorem dotCtx_lhs_2 (i : S128x64x64.Idx) (q : dotCtx.contr.Idx) : (dotCtx.lhsIdx i q 2).val = (q ⟨0, by decide⟩).val :=
  dotCtx.lhsIdx_val_of_single rfl i q
theorem dotCtx_rhs_0 (i : S128x64x64.Idx) (q : dotCtx.contr.Idx) : (dotCtx.rhsIdx i q 0).val = (i 0).val := by
  unfold DotDims.rhsIdx
  rw [dif_pos (show (0 : Fin S128x64x64.rank) ∈ dotCtx.rhsBatch by decide)]
  rfl
theorem dotCtx_rhs_1 (i : S128x64x64.Idx) (q : dotCtx.contr.Idx) : (dotCtx.rhsIdx i q 1).val = (q ⟨0, by decide⟩).val :=
  dotCtx.rhsIdx_val_of_single rfl i q
theorem dotCtx_rhs_2 (i : S128x64x64.Idx) (q : dotCtx.contr.Idx) : (dotCtx.rhsIdx i q 2).val = (i 2).val := by
  unfold DotDims.rhsIdx
  rw [dif_neg (show ¬(2 : Fin S128x64x64.rank) ∈ dotCtx.rhsBatch by decide), dif_pos (show (2 : Fin S128x64x64.rank) ∈ dotCtx.rhsNonContracting by decide)]
  rfl

/-- A context entry is the weights' row against the values' column. -/
theorem context_apply (p vh : FVec Ideal S128x64x64 .bf16) (b : Fin 128) (t d : Fin 64) :
    context p vh (ix3 b t d) = ∑ k : Fin 64, p (ix3 b t k) * vh (ix3 b k d) := by
  show FloatOps.matmul dotCtx none p vh (constant S128x64x64 .f32 0x00000000#32) (ix3 b t d) = _
  rw [Ideal.matmul_constant_zero_apply, ← Equiv.sum_comp (contrEquiv1 dotCtx 64 rfl rfl).symm]
  refine Finset.sum_congr rfl fun k _ => ?_
  have hk := contrEquiv1_symm_val dotCtx 64 rfl rfl k
  have el : dotCtx.lhsIdx (ix3 b t d) ((contrEquiv1 dotCtx 64 rfl rfl).symm k) = ix3 b t k := funext fun a => Fin.ext (by
    match a with
    | ⟨0, _⟩ => exact dotCtx_lhs_0 _ _
    | ⟨1, _⟩ => exact dotCtx_lhs_1 _ _
    | ⟨2, _⟩ => exact (dotCtx_lhs_2 _ _).trans hk)
  have er : dotCtx.rhsIdx (ix3 b t d) ((contrEquiv1 dotCtx 64 rfl rfl).symm k) = ix3 b k d := funext fun a => Fin.ext (by
    match a with
    | ⟨0, _⟩ => exact dotCtx_rhs_0 _ _
    | ⟨1, _⟩ => exact (dotCtx_rhs_1 _ _).trans hk
    | ⟨2, _⟩ => exact dotCtx_rhs_2 _ _)
  rw [el, er]

/-! ## The head matrices back to rows -/

/-- Row 64·a + t, column e of the merged heads is head e / 64 of window a at (t, e % 64). -/
theorem mergeHeads_apply (v35 : FVec Ideal S128x64x64 .f32) (a : Fin 16) (t : Fin 64) (e : Fin 512) :
    mergeHeads v35 (ix2 (rowIx a t) e) = v35 (ix3 (batIx a (headOf e)) t (coordOf e)) := by
  have ha := a.isLt
  have ht := t.isLt
  have he := e.isLt
  unfold mergeHeads
  -- rows regrouped by window: row 64·a + t is token t of window a
  refine (shapeCast_apply _ shapeCasts_S16x64x512_S1024x512 (ix2 (rowIx a t) e) (ix3 a t e) ?_).trans ?_
  · rw [Shape.rowMajor_val_two, Shape.rowMajor_val_three]
    show (a.val * 64 + t.val) * 512 + e.val = (64 * a.val + t.val) * 512 + e.val
    omega
  -- the format change is the identity; column e is coordinate e % 64 of head e / 64
  refine (truncf_apply _ bitsLt_bf16_f32 (ix3 a t e)).trans ?_
  refine (shapeCast_apply _ shapeCasts_S16x64x8x64_S16x64x512 (ix3 a t e) (ix4 a t (headOf e) (coordOf e)) ?_).trans ?_
  · rw [Shape.rowMajor_val_four, Shape.rowMajor_val_three]
    show ((a.val * 64 + t.val) * 8 + e.val / 64) * 64 + e.val % 64 = (a.val * 64 + t.val) * 512 + e.val
    omega
  -- tokens and heads exchanged
  refine (transpose_apply [0, 2, 1, 3] _ transposes_S16x8x64x64_p0_2_1_3_S16x64x8x64 (ix4 a t (headOf e) (coordOf e))
    (ix4 a (headOf e) t (coordOf e)) fun b => ?_).trans ?_
  · match b with
    | ⟨0, _⟩ => rfl
    | ⟨1, _⟩ => rfl
    | ⟨2, _⟩ => rfl
    | ⟨3, _⟩ => rfl
  -- head h of window a is head matrix 8·a + h
  refine shapeCast_apply _ shapeCasts_S128x64x64_S16x8x64x64 (ix4 a (headOf e) t (coordOf e)) (ix3 (batIx a (headOf e)) t (coordOf e)) ?_
  rw [Shape.rowMajor_val_three, Shape.rowMajor_val_four]
  show ((8 * a.val + e.val / 64) * 64 + t.val) * 64 + e.val % 64 = ((a.val * 8 + e.val / 64) * 64 + t.val) * 64 + e.val % 64
  omega

/-! ## The output projection: a plain product, the left's axis 1 contracted with the right's axis 0 -/

/-- The dimension numbers of the output projection. -/
abbrev dotOut : DotDims S1024x512 S512x1024 S1024x1024 := dot_S1024x512_S512x1024_S1024x1024_1_0_0_1_n_n

theorem dotOut_lhs_0 (i : S1024x1024.Idx) (q : dotOut.contr.Idx) : (dotOut.lhsIdx i q 0).val = (i 0).val := by
  unfold DotDims.lhsIdx
  rw [dif_neg (show ¬(0 : Fin S1024x512.rank) ∈ dotOut.lhsBatch by decide), dif_pos (show (0 : Fin S1024x512.rank) ∈ dotOut.lhsNonContracting by decide)]
  rfl
theorem dotOut_lhs_1 (i : S1024x1024.Idx) (q : dotOut.contr.Idx) : (dotOut.lhsIdx i q 1).val = (q ⟨0, by decide⟩).val :=
  dotOut.lhsIdx_val_of_single rfl i q
theorem dotOut_rhs_0 (i : S1024x1024.Idx) (q : dotOut.contr.Idx) : (dotOut.rhsIdx i q 0).val = (q ⟨0, by decide⟩).val :=
  dotOut.rhsIdx_val_of_single rfl i q
theorem dotOut_rhs_1 (i : S1024x1024.Idx) (q : dotOut.contr.Idx) : (dotOut.rhsIdx i q 1).val = (i 1).val := by
  unfold DotDims.rhsIdx
  rw [dif_neg (show ¬(1 : Fin S512x1024.rank) ∈ dotOut.rhsBatch by decide), dif_pos (show (1 : Fin S512x1024.rank) ∈ dotOut.rhsNonContracting by decide)]
  rfl

/-- The output projection's entry is the merged row against the projection's column. -/
theorem outProj_apply (v40 : FVec Ideal S1024x512 .bf16) (x2 : Vec Ideal S512x1024 .bf16) (r : Fin 1024) (j : Fin 1024) :
    outProj v40 x2 (ix2 r j) = ∑ e : Fin 512, v40 (ix2 r e) * x2 (ix2 e j) := by
  show FloatOps.matmul dotOut none v40 (shapeCast S512x1024 x2 shapeCasts_S512x1024_S512x1024) (constant S1024x1024 .f32 0x00000000#32) (ix2 r j) = _
  rw [shapeCast_self, Ideal.matmul_constant_zero_apply, ← Equiv.sum_comp (contrEquiv1 dotOut 512 rfl rfl).symm]
  refine Finset.sum_congr rfl fun k _ => ?_
  have hk := contrEquiv1_symm_val dotOut 512 rfl rfl k
  have el : dotOut.lhsIdx (ix2 r j) ((contrEquiv1 dotOut 512 rfl rfl).symm k) = ix2 r k := funext fun a => Fin.ext (by
    match a with
    | ⟨0, _⟩ => exact dotOut_lhs_0 _ _
    | ⟨1, _⟩ => exact (dotOut_lhs_1 _ _).trans hk)
  have er : dotOut.rhsIdx (ix2 r j) ((contrEquiv1 dotOut 512 rfl rfl).symm k) = ix2 k j := funext fun a => Fin.ext (by
    match a with
    | ⟨0, _⟩ => exact (dotOut_rhs_0 _ _).trans hk
    | ⟨1, _⟩ => exact dotOut_rhs_1 _ _)
  rw [el, er]

/-! ## The bias, and the rows regrouped by window -/

/-- Window a, token t, feature j of the stored block is row 64·a + t of the projected rows plus the bias at j. -/
theorem addBias_apply (v43 : FVec Ideal S1024x1024 .f32) (x3 : Vec Ideal S1x1024 .f32) (a : Fin 16) (t : Fin 64) (j : Fin 1024) :
    addBias v43 x3 (ix3 a t j) = v43 (ix2 (rowIx a t) j) + x3 (ix2 (0 : Fin 1) j) := by
  have ha := a.isLt
  have ht := t.isLt
  have hj := j.isLt
  unfold addBias
  refine (shapeCast_apply _ shapeCasts_S1024x1024_S16x64x1024 (ix3 a t j) (ix2 (rowIx a t) j) ?_).trans ?_
  · rw [Shape.rowMajor_val_two, Shape.rowMajor_val_three]
    show (64 * a.val + t.val) * 1024 + j.val = (a.val * 64 + t.val) * 1024 + j.val
    omega
  refine (addf_apply _ _ _).trans ?_
  refine congrArg (v43 (ix2 (rowIx a t) j) + ·) ?_
  rw [shapeCast_self]
  exact broadcastTo_1b_ab_apply x3 broadcasts_S1x1024_S1024x1024 (rowIx a t) j

end Cert.KernelIdeal.Body

end
-- ==== Proof.KBody.lean ====
/-
  The block body's stored value read at window `a`, token `t`, feature `j` of the block: the window attention of
  window `a`'s tokens.

  The stages are read at an index one after another, innermost first: the three cuts of the projected rows are the
  queries, keys and values of the specification (`qkv_at`), their scaled inner products its logits (`logit_at`),
  the shifted exponentials its numerators (`num_at`), the normalised ones its weights (`prob_at`), the weights
  against the values its contexts (`ctx_at`), the re-laid contexts its merged heads (`merged_at`), and the
  projection plus bias its output (`body_at`).
-/
import proofs.«114505_j8203387535714_2_alg».proof.Proof.KFront
import proofs.«114505_j8203387535714_2_alg».proof.Proof.KBack
import proofs.«114505_j8203387535714_2_alg».proof.Proof.KStages
import proofs.«114505_j8203387535714_2_alg».proof.Proof.Spec
import Idealize.ShloMosaic.Lib.ValueIdx

noncomputable section

namespace Cert.KernelIdeal.Body

open Idealize.ShloMosaic Idealize.ShloMosaic.ValueIdx Cert.KernelIdeal Cert.KernelIdeal.Gen Cert.Attn

/-- Window `a`'s tokens, as a plain function of token and feature. -/
abbrev tokens (x0 : Vec Ideal S16x64x1024 .bf16) (a : Fin 16) : Fin 64 → Fin 1024 → EReal := fun t d => x0 (ix3 a t d)

/-- The first projection, as a plain function of row and column. -/
abbrev weightsIn (x1 : Vec Ideal S1024x1536 .bf16) : Fin 1024 → Fin 1536 → EReal := fun d e => x1 (ix2 d e)

/-- The queries, keys and values of the block: the three cuts of the projected rows, as head matrices. -/
abbrev qHeads (x0 : Vec Ideal S16x64x1024 .bf16) (x1 : Vec Ideal S1024x1536 .bf16) : FVec Ideal S128x64x64 .bf16 :=
  heads offQ slices_S16x64x1536_o0_0_0_S16x64x512 (proj x0 x1)
abbrev kHeads (x0 : Vec Ideal S16x64x1024 .bf16) (x1 : Vec Ideal S1024x1536 .bf16) : FVec Ideal S128x64x64 .bf16 :=
  heads offK slices_S16x64x1536_o0_0_512_S16x64x512 (proj x0 x1)
abbrev vHeads (x0 : Vec Ideal S16x64x1024 .bf16) (x1 : Vec Ideal S1024x1536 .bf16) : FVec Ideal S128x64x64 .bf16 :=
  heads offV slices_S16x64x1536_o0_0_1024_S16x64x512 (proj x0 x1)

/-- Entry (t, d) of head matrix 8·a + h of the cut starting at column `o` is the specification's projected token
    `t` of window `a` at column o + 64·h + d. -/
theorem qkv_at (x0 : Vec Ideal S16x64x1024 .bf16) (x1 : Vec Ideal S1024x1536 .bf16)
    (o : Nat) (ho : o + 512 ≤ 1536) (hs : S16x64x1536.Slices ![0, 0, o] S16x64x512)
    (a : Fin 16) (h : Fin 8) (t d : Fin 64) :
    heads ![0, 0, o] hs (proj x0 x1) (ix3 (batIx a h) t d) = qkv (tokens x0 a) (weightsIn x1) t (col o ho h d) :=
  (heads_apply o ho hs (proj x0 x1) a h t d).trans (proj_apply x0 x1 a t (col o ho h d))

/-- The scores of head matrix 8·a + h are the logits of head `h` of window `a`. -/
theorem logit_at (x0 : Vec Ideal S16x64x1024 .bf16) (x1 : Vec Ideal S1024x1536 .bf16)
    (a : Fin 16) (h : Fin 8) (t k : Fin 64) :
    scores (qHeads x0 x1) (kHeads x0 x1) (ix3 (batIx a h) t k) = logit (tokens x0 a) (weightsIn x1) h t k := by
  refine (scores_apply _ _ _ _ _).trans ?_
  show _ = (∑ d : Fin 64, _) * scale
  refine congrArg (· * scale) (Finset.sum_congr rfl fun d _ => ?_)
  exact congrArg₂ (· * ·)
    (qkv_at x0 x1 0 (by omega) slices_S16x64x1536_o0_0_0_S16x64x512 a h t d)
    (qkv_at x0 x1 512 (by omega) slices_S16x64x1536_o0_0_512_S16x64x512 a h k d)

/-- The shifted exponentials of head matrix 8·a + h are the numerators of head `h` of window `a`. -/
theorem num_at (x0 : Vec Ideal S16x64x1024 .bf16) (x1 : Vec Ideal S1024x1536 .bf16)
    (a : Fin 16) (h : Fin 8) (t k : Fin 64) :
    expo (scores (qHeads x0 x1) (kHeads x0 x1)) (ix3 (batIx a h) t k) = num (tokens x0 a) (weightsIn x1) h t k := by
  refine (expo_apply _ _ _ _).trans ?_
  have hrow : (fun k' => scores (qHeads x0 x1) (kHeads x0 x1) (ix3 (batIx a h) t k'))
      = fun k' => logit (tokens x0 a) (weightsIn x1) h t k' := funext fun k' => logit_at x0 x1 a h t k'
  rw [hrow, logit_at]
  rfl

/-- The normalised exponentials of head matrix 8·a + h are the attention weights of head `h` of window `a`. -/
theorem prob_at (x0 : Vec Ideal S16x64x1024 .bf16) (x1 : Vec Ideal S1024x1536 .bf16)
    (a : Fin 16) (h : Fin 8) (t k : Fin 64) :
    weights (expo (scores (qHeads x0 x1) (kHeads x0 x1))) (ix3 (batIx a h) t k)
      = prob (tokens x0 a) (weightsIn x1) h t k := by
  refine (weights_apply _ _ _ _).trans ?_
  have hrow : (fun k' => expo (scores (qHeads x0 x1) (kHeads x0 x1)) (ix3 (batIx a h) t k'))
      = fun k' => num (tokens x0 a) (weightsIn x1) h t k' := funext fun k' => num_at x0 x1 a h t k'
  rw [hrow, num_at]
  rfl

/-- The weights against the values, head matrix 8·a + h, are the contexts of head `h` of window `a`. -/
theorem ctx_at (x0 : Vec Ideal S16x64x1024 .bf16) (x1 : Vec Ideal S1024x1536 .bf16)
    (a : Fin 16) (h : Fin 8) (t d : Fin 64) :
    context (weights (expo (scores (qHeads x0 x1) (kHeads x0 x1)))) (vHeads x0 x1) (ix3 (batIx a h) t d)
      = ctx (tokens x0 a) (weightsIn x1) h t d := by
  refine (context_apply _ _ _ _ _).trans ?_
  show _ = ∑ k : Fin 64, _
  refine Finset.sum_congr rfl fun k _ => ?_
  exact congrArg₂ (· * ·)
    (prob_at x0 x1 a h t k)
    (qkv_at x0 x1 1024 (by omega) slices_S16x64x1536_o0_0_1024_S16x64x512 a h k d)

/-- Row 64·a + t of the re-laid contexts is the specification's merged heads of window `a` at token `t`. -/
theorem merged_at (x0 : Vec Ideal S16x64x1024 .bf16) (x1 : Vec Ideal S1024x1536 .bf16)
    (a : Fin 16) (t : Fin 64) (e : Fin 512) :
    mergeHeads (context (weights (expo (scores (qHeads x0 x1) (kHeads x0 x1)))) (vHeads x0 x1)) (ix2 (rowIx a t) e)
      = merged (tokens x0 a) (weightsIn x1) t e :=
  (mergeHeads_apply _ a t e).trans (ctx_at x0 x1 a (headOf e) t (coordOf e))

/-- The stored block at (a, t, j) is the attention of the block's window `a`. -/
theorem body_at (x0 : Vec Ideal S16x64x1024 .bf16) (x1 : Vec Ideal S1024x1536 .bf16) (x2 : Vec Ideal S512x1024 .bf16) (x3 : Vec Ideal S1x1024 .f32)
    (a : Fin 16) (t : Fin 64) (j : Fin 1024) :
    stored x0 x1 x2 x3 (ix3 a t j)
      = win (fun t d => x0 (ix3 a t d)) (fun d e => x1 (ix2 d e)) (fun e j => x2 (ix2 e j)) (fun j => x3 (ix2 (0 : Fin 1) j)) t j := by
  refine (addBias_apply _ x3 a t j).trans ?_
  show _ = (∑ e : Fin 512, _) + x3 (ix2 (0 : Fin 1) j)
  refine congrArg (· + x3 (ix2 (0 : Fin 1) j)) ?_
  refine (outProj_apply _ x2 (rowIx a t) j).trans ?_
  refine Finset.sum_congr rfl fun e _ => ?_
  exact congrArg (· * x2 (ix2 e j)) (merged_at x0 x1 a t e)

end Cert.KernelIdeal.Body

end
-- ==== Proof.RefValue.lean ====
/-
  The reference's projected, attended and re-projected tokens, read at one window, token and feature: the window's
  attention (Cert.Attn.win) of that window's tokens.
-/
import proofs.«114505_j8203387535714_2_alg».proof.Proof.Gen.ReferenceIdeal.Read
import proofs.«114505_j8203387535714_2_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Attn

section Pieces

variable (x0 : (⟨S8x64x256x256, .f32⟩ : BufTy).Contents (Elt Ideal)) (x1 : (⟨S1024x1536, .f32⟩ : BufTy).Contents (Elt Ideal))

/-- Window `n`'s tokens, as a 64 × 1024 array. -/
abbrev tok (n : Fin 512) : Fin 64 → Fin 1024 → EReal := fun t d => val_main_v5 (F := Ideal) x0 (ix3 n t d)

/-- The first projection, as a 1024 × 1536 array. -/
abbrev proj : Fin 1024 → Fin 1536 → EReal := fun d e => x1 (ix2 d e)

/-- The projected tokens of window `n`: token `t`, column `e`. -/
theorem qkv_at (n : Fin 512) (t : Fin 64) (e : Fin 1536) :
    val_main_v6 (F := Ideal) x0 x1 (ix3 n t e) = qkv (tok x0 n) (proj x1) t e := by
  refine (val_main_v6_apply x0 x1 (ix3 n t e)).trans ?_
  unfold qkv
  refine Finset.sum_congr rfl fun k _ => ?_
  have el : lidx_main_v6 (ix3 n t e) k = ix3 n t k := by
    funext a; match a with | ⟨0, _⟩ => rfl | ⟨1, _⟩ => rfl | ⟨2, _⟩ => rfl
  have er : ridx_main_v6 (ix3 n t e) k = ix2 k e := by
    funext a; match a with | ⟨0, _⟩ => rfl | ⟨1, _⟩ => rfl
  rw [el, er]

/-- The queries: head `h`, token `t`, coordinate `d` is column `64·h + d` of the projected tokens. -/
theorem q_at (n : Fin 512) (h : Fin 8) (t d : Fin 64) :
    val_main_v11 (F := Ideal) x0 x1 (ix4 n h t d) = qkv (tok x0 n) (proj x1) t (col 0 (by omega) h d) := by
  refine (val_main_v11_apply x0 x1 _).trans ?_
  refine (val_main_v10_apply x0 x1 _).trans ?_
  refine (val_main_v7_apply x0 x1 _).trans ?_
  refine Eq.trans (congrArg _ ?_) (qkv_at x0 x1 n t (col 0 (by omega) h d))
  have hn := n.isLt; have hh := h.isLt; have ht := t.isLt; have hd := d.isLt
  funext a; apply Fin.ext
  match a with
  | ⟨0, _⟩ => show (((n.val * 64 + t.val) * 8 + h.val) * 64 + d.val) / 32768 = n.val; omega
  | ⟨1, _⟩ => show (((n.val * 64 + t.val) * 8 + h.val) * 64 + d.val) / 512 % 64 = t.val; omega
  | ⟨2, _⟩ => show (((n.val * 64 + t.val) * 8 + h.val) * 64 + d.val) % 512 = 0 + 64 * h.val + d.val; omega

/-- The keys: column `512 + 64·h + d`. -/
theorem k_at (n : Fin 512) (h : Fin 8) (t d : Fin 64) :
    val_main_v13 (F := Ideal) x0 x1 (ix4 n h t d) = qkv (tok x0 n) (proj x1) t (col 512 (by omega) h d) := by
  refine (val_main_v13_apply x0 x1 _).trans ?_
  refine (val_main_v12_apply x0 x1 _).trans ?_
  refine (val_main_v8_apply x0 x1 _).trans ?_
  refine Eq.trans (congrArg _ ?_) (qkv_at x0 x1 n t (col 512 (by omega) h d))
  have hn := n.isLt; have hh := h.isLt; have ht := t.isLt; have hd := d.isLt
  funext a; apply Fin.ext
  match a with
  | ⟨0, _⟩ => show (((n.val * 64 + t.val) * 8 + h.val) * 64 + d.val) / 32768 = n.val; omega
  | ⟨1, _⟩ => show (((n.val * 64 + t.val) * 8 + h.val) * 64 + d.val) / 512 % 64 = t.val; omega
  | ⟨2, _⟩ => show 512 + (((n.val * 64 + t.val) * 8 + h.val) * 64 + d.val) % 512 = 512 + 64 * h.val + d.val; omega

/-- The values: column `1024 + 64·h + d`. -/
theorem v_at (n : Fin 512) (h : Fin 8) (t d : Fin 64) :
    val_main_v15 (F := Ideal) x0 x1 (ix4 n h t d) = qkv (tok x0 n) (proj x1) t (col 1024 (by omega) h d) := by
  refine (val_main_v15_apply x0 x1 _).trans ?_
  refine (val_main_v14_apply x0 x1 _).trans ?_
  refine (val_main_v9_apply x0 x1 _).trans ?_
  refine Eq.trans (congrArg _ ?_) (qkv_at x0 x1 n t (col 1024 (by omega) h d))
  have hn := n.isLt; have hh := h.isLt; have ht := t.isLt; have hd := d.isLt
  funext a; apply Fin.ext
  match a with
  | ⟨0, _⟩ => show (((n.val * 64 + t.val) * 8 + h.val) * 64 + d.val) / 32768 = n.val; omega
  | ⟨1, _⟩ => show (((n.val * 64 + t.val) * 8 + h.val) * 64 + d.val) / 512 % 64 = t.val; omega
  | ⟨2, _⟩ => show 1024 + (((n.val * 64 + t.val) * 8 + h.val) * 64 + d.val) % 512 = 1024 + 64 * h.val + d.val; omega

/-- The scaled logits. -/
theorem logit_at (n : Fin 512) (h : Fin 8) (t k : Fin 64) :
    val_main_v18 (F := Ideal) x0 x1 (ix4 n h t k) = logit (tok x0 n) (proj x1) h t k := by
  refine (val_main_v18_apply x0 x1 _).trans ?_
  rw [Ideal.mulf_def, val_main_v17_apply, val_main_cst_apply, Ideal.ofBits_def, val_main_v16_apply]
  unfold logit
  refine congrArg (· * scale) (Finset.sum_congr rfl fun d _ => ?_)
  have el : lidx_main_v16 (ix4 n h t k) d = ix4 n h t d := by
    funext a; match a with | ⟨0, _⟩ => rfl | ⟨1, _⟩ => rfl | ⟨2, _⟩ => rfl | ⟨3, _⟩ => rfl
  have er : ridx_main_v16 (ix4 n h t k) d = ix4 n h k d := by
    funext a; match a with | ⟨0, _⟩ => rfl | ⟨1, _⟩ => rfl | ⟨2, _⟩ => rfl | ⟨3, _⟩ => rfl
  rw [el, er, q_at, k_at]

/-- The reduction of the logits over their last axis, as a fact about the two shapes. -/
theorem reducesLast : S512x8x64x64.Reduces [3] S512x8x64 := by decide

/-- A row index with the key coordinate `k` put back. -/
theorem lift_at (n : Fin 512) (h : Fin 8) (t : Fin 64) (k : Fin (S512x8x64x64.size 3)) :
    reducesLast.lift (ix3 n h t) k = ix4 n h t (⟨k.val, k.isLt⟩ : Fin 64) := by
  funext c; apply Fin.ext
  fin_cases c <;> rfl

/-- The row maximum: the fold of `max` over the row's logits, from −∞. -/
theorem rowMax_at (n : Fin 512) (h : Fin 8) (t : Fin 64) :
    val_main_v21 (F := Ideal) x0 x1 (ix3 n h t) = rowMax (tok x0 n) (proj x1) h t := by
  refine (val_main_v21_apply x0 x1 _).trans ?_
  rw [Ideal.maximumf_def, val_main_v20_apply, val_main_cst_1_apply, Ideal.ofBits_def]
  have e19 : val_main_v19 (F := Ideal) x0 x1 (ix3 n h t) = rowMax (tok x0 n) (proj x1) h t := by
    unfold val_main_v19
    have hr := Host.reduce_eq_fold_single (α := Ideal .f32) (FloatOps.maximumf (F := Ideal) (φ := .f32))
      (fun i => val_main_v18 (F := Ideal) x0 x1 i) (fun i => val_main_cst_0 (F := Ideal) i)
      reducesTo_S512x8x64x64_S512x8x64_d3 reducesLast h_S_ (ix3 n h t)
    refine hr.trans ?_
    have hf : ((fun i => val_main_v18 (F := Ideal) x0 x1 i) ∘ reducesLast.lift (ix3 n h t))
        = fun k : Fin 64 => logit (tok x0 n) (proj x1) h t k :=
      funext fun k => (congrArg (val_main_v18 (F := Ideal) x0 x1) (lift_at n h t k)).trans (logit_at x0 x1 n h t _)
    rw [hf]
    rfl
  rw [e19]
  exact max_eq_right ((Finset.le_fold_max _).2 (Or.inl le_rfl))

/-- The shifted exponentials. -/
theorem num_at (n : Fin 512) (h : Fin 8) (t k : Fin 64) :
    val_main_v25 (F := Ideal) x0 x1 (ix4 n h t k) = num (tok x0 n) (proj x1) h t k := by
  refine (val_main_v25_apply x0 x1 _).trans ?_
  rw [Ideal.hostUnary_exp_def, val_main_v24_apply, Ideal.subf_def, val_main_v23_apply, val_main_v22_apply]
  have ei : idx_main_v22 (idx_main_v23 (ix4 n h t k)) = ix3 n h t := by
    funext a; match a with | ⟨0, _⟩ => rfl | ⟨1, _⟩ => rfl | ⟨2, _⟩ => rfl
  rw [ei, rowMax_at, logit_at]
  rfl

/-- The normalisers. -/
theorem den_at (n : Fin 512) (h : Fin 8) (t : Fin 64) :
    val_main_v26 (F := Ideal) x0 x1 (ix3 n h t) = den (tok x0 n) (proj x1) h t := by
  refine (val_main_v26_apply x0 x1 _).trans ?_
  rw [val_main_cst_2_apply, Ideal.ofBits_def, Ideal.ofBits_zero_f32, zero_add]
  unfold den
  refine Finset.sum_congr rfl fun k _ => ?_
  have ei : idx_main_v26 (ix3 n h t) k = ix4 n h t k := by
    funext a; match a with | ⟨0, _⟩ => rfl | ⟨1, _⟩ => rfl | ⟨2, _⟩ => rfl | ⟨3, _⟩ => rfl
  rw [ei, num_at]

/-- The attention weights. -/
theorem prob_at (n : Fin 512) (h : Fin 8) (t k : Fin 64) :
    val_main_v29 (F := Ideal) x0 x1 (ix4 n h t k) = prob (tok x0 n) (proj x1) h t k := by
  refine (val_main_v29_apply x0 x1 _).trans ?_
  rw [Ideal.hostDivf_def, val_main_v28_apply, val_main_v27_apply]
  have ei : idx_main_v27 (idx_main_v28 (ix4 n h t k)) = ix3 n h t := by
    funext a; match a with | ⟨0, _⟩ => rfl | ⟨1, _⟩ => rfl | ⟨2, _⟩ => rfl
  rw [ei, den_at, num_at]
  rfl

/-- The heads' contexts. -/
theorem ctx_at (n : Fin 512) (h : Fin 8) (t d : Fin 64) :
    val_main_v30 (F := Ideal) x0 x1 (ix4 n h t d) = ctx (tok x0 n) (proj x1) h t d := by
  refine (val_main_v30_apply x0 x1 _).trans ?_
  unfold ctx
  refine Finset.sum_congr rfl fun k _ => ?_
  have el : lidx_main_v30 (ix4 n h t d) k = ix4 n h t k := by
    funext a; match a with | ⟨0, _⟩ => rfl | ⟨1, _⟩ => rfl | ⟨2, _⟩ => rfl | ⟨3, _⟩ => rfl
  have er : ridx_main_v30 (ix4 n h t d) k = ix4 n h k d := by
    funext a; match a with | ⟨0, _⟩ => rfl | ⟨1, _⟩ => rfl | ⟨2, _⟩ => rfl | ⟨3, _⟩ => rfl
  rw [el, er, prob_at, v_at]

/-- The contexts side by side: column `e` is head `e / 64`, coordinate `e % 64`. -/
theorem merged_at (n : Fin 512) (t : Fin 64) (e : Fin 512) :
    val_main_v32 (F := Ideal) x0 x1 (ix3 n t e) = merged (tok x0 n) (proj x1) t e := by
  refine (val_main_v32_apply x0 x1 _).trans ?_
  refine (val_main_v31_apply x0 x1 _).trans ?_
  unfold merged
  refine Eq.trans (congrArg _ ?_) (ctx_at x0 x1 n (headOf e) t (coordOf e))
  have hn := n.isLt; have ht := t.isLt; have he := e.isLt
  funext a; apply Fin.ext
  match a with
  | ⟨0, _⟩ => show ((n.val * 64 + t.val) * 512 + e.val) / 32768 = n.val; omega
  | ⟨1, _⟩ => show ((n.val * 64 + t.val) * 512 + e.val) / 64 % 8 = e.val / 64; omega
  | ⟨2, _⟩ => show ((n.val * 64 + t.val) * 512 + e.val) / 512 % 64 = t.val; omega
  | ⟨3, _⟩ => show ((n.val * 64 + t.val) * 512 + e.val) % 64 = e.val % 64; omega

end Pieces

/-- Window `n`, token `t`, feature `j` of the reference's value before its final re-layout is the window attention of
    window `n`'s tokens under the two projections and the bias. -/
theorem ref_at (x0 : (⟨S8x64x256x256, .f32⟩ : BufTy).Contents (Elt Ideal)) (x1 : (⟨S1024x1536, .f32⟩ : BufTy).Contents (Elt Ideal))
    (x2 : (⟨S512x1024, .f32⟩ : BufTy).Contents (Elt Ideal)) (x3 : (⟨S1024, .f32⟩ : BufTy).Contents (Elt Ideal))
    (n : Fin 512) (t : Fin 64) (j : Fin 1024) :
    val_main_v36 (F := Ideal) x0 x1 x2 x3 (ix3 n t j)
      = win (fun t d => val_main_v5 (F := Ideal) x0 (ix3 n t d)) (fun d e => x1 (ix2 d e)) (fun e j => x2 (ix2 e j))
          (fun j => x3 (ix1 j)) t j := by
  refine (val_main_v36_apply x0 x1 x2 x3 _).trans ?_
  rw [Ideal.addf_def, val_main_v35_apply, val_main_v34_apply, val_main_v33_apply]
  unfold win
  have eb : idx_main_v34 (idx_main_v35 (ix3 n t j)) = ix1 j := by
    funext a; match a with | ⟨0, _⟩ => rfl
  rw [eb]
  refine congrArg (· + x3 (ix1 j)) (Finset.sum_congr rfl fun e _ => ?_)
  have el : lidx_main_v33 (ix3 n t j) e = ix3 n t e := by
    funext a; match a with | ⟨0, _⟩ => rfl | ⟨1, _⟩ => rfl | ⟨2, _⟩ => rfl
  have er : ridx_main_v33 (ix3 n t j) e = ix2 e j := by
    funext a; match a with | ⟨0, _⟩ => rfl | ⟨1, _⟩ => rfl
  rw [el, er, merged_at]

end Cert.ReferenceIdeal.RefValue

end
-- ==== Proof.KArray.lean ====
/-
  From blocks to the array.

  The kernel's output array has 512 windows; grid point `t` handles the 16 windows 16·q … 16·q + 15 (q the point's
  block index on the first axis) and writes back one block of 16 × 64 × 1024 values.  The token array moves with the
  output (same block index); the two projections and the bias are whole at every point.  Since a window's attention
  depends on that window's tokens only, the block point `t` writes is the restriction to its 16 windows of ONE
  function of the whole arrays — window `n`, token `t`, feature `j` ↦ the attention of window `n` —, the blocks
  tile the array, and so the array ends equal to that function.
-/
import proofs.«114505_j8203387535714_2_alg».proof.Proof.Gen.KernelIdeal.Frame
import proofs.«114505_j8203387535714_2_alg».proof.Proof.KStages
import proofs.«114505_j8203387535714_2_alg».proof.Proof.Spec
import Idealize.ShloMosaic.Lib.Pipeline.Value
import Idealize.ShloMosaic.Lib.ValueIdx

noncomputable section

namespace Cert.KernelIdeal.Arr

open Cert.KernelIdeal Cert.KernelIdeal.Gen Cert.KernelIdeal.Body Idealize.ShloMosaic Idealize.ShloMosaic.TcCoe Idealize.SL.Sem
open Idealize.ShloMosaic.ValueIdx Cert.Attn
open Idealize.ShloMosaic.Pipeline (Dat)

/-- The body's stored block, at window `a`, token `t`, feature `j`, is the attention of the block's window `a`. -/
def BodyAt : Prop :=
  ∀ (x0 : Vec Ideal S16x64x1024 .bf16) (x1 : Vec Ideal S1024x1536 .bf16) (x2 : Vec Ideal S512x1024 .bf16) (x3 : Vec Ideal S1x1024 .f32)
    (a : Fin 16) (t : Fin 64) (j : Fin 1024),
    stored x0 x1 x2 x3 (ix3 a t j)
      = win (fun t d => x0 (ix3 a t d)) (fun d e => x1 (ix2 d e)) (fun e j => x2 (ix2 e j)) (fun j => x3 (ix2 (0 : Fin 1) j)) t j

/-- The output array as one function of the token array, the projections and the bias row. -/
def G (T : S512x64x1024.Idx → EReal) (W : S1024x1536.Idx → EReal) (Wo : S512x1024.Idx → EReal) (B : S1x1024.Idx → EReal) :
    S512x64x1024.Idx → EReal := fun i =>
  win (fun t d => T (ix3 (⟨(i 0).val, (i 0).isLt⟩ : Fin 512) t d)) (fun d e => W (ix2 d e)) (fun e j => Wo (ix2 e j))
    (fun j => B (ix2 (0 : Fin 1) j)) (⟨(i 1).val, (i 1).isLt⟩ : Fin 64) (⟨(i 2).val, (i 2).isLt⟩ : Fin 1024)

/-- A block of the body's value is the block of `G`: for loaded vectors that are window `16·q + a`'s tokens and the
    whole projections and bias, the stored value at `y` is `G` at the index `16·q + y 0, y 1, y 2`. -/
theorem block_eq (hb : BodyAt) (x0 : Vec Ideal S16x64x1024 .bf16) (x1 : Vec Ideal S1024x1536 .bf16) (x2 : Vec Ideal S512x1024 .bf16)
    (x3 : Vec Ideal S1x1024 .f32) (T : S512x64x1024.Idx → EReal) (W : S1024x1536.Idx → EReal) (Wo : S512x1024.Idx → EReal)
    (B : S1x1024.Idx → EReal) (q : Nat) (hq : q ≤ 31)
    (h0 : ∀ (a : Fin 16) (t : Fin 64) (d : Fin 1024), x0 (ix3 a t d) = T (ix3 (⟨16 * q + a.val, by have := a.isLt; omega⟩ : Fin 512) t d))
    (h1 : ∀ y, x1 y = W y) (h2 : ∀ y, x2 y = Wo y) (h3 : ∀ y, x3 y = B y)
    (y : S16x64x1024.Idx) (i : S512x64x1024.Idx)
    (hi0 : (i 0).val = 16 * q + (y 0).val) (hi1 : (i 1).val = (y 1).val) (hi2 : (i 2).val = (y 2).val) :
    k0_pay1 (k0_pay2 x0 x1 x2) x3 y = G T W Wo B i := by
  have hy : y = ix3 (⟨(y 0).val, (y 0).isLt⟩ : Fin 16) (⟨(y 1).val, (y 1).isLt⟩ : Fin 64) (⟨(y 2).val, (y 2).isLt⟩ : Fin 1024) := by
    funext a; match a with | ⟨0, _⟩ => rfl | ⟨1, _⟩ => rfl | ⟨2, _⟩ => rfl
  rw [payload_eq]
  refine (congrArg (stored x0 x1 x2 x3) hy).trans ((hb x0 x1 x2 x3 _ _ _).trans ?_)
  unfold G
  have e1 : (⟨(i 1).val, (i 1).isLt⟩ : Fin 64) = ⟨(y 1).val, (y 1).isLt⟩ := Fin.ext hi1
  have e2 : (⟨(i 2).val, (i 2).isLt⟩ : Fin 1024) = ⟨(y 2).val, (y 2).isLt⟩ := Fin.ext hi2
  have e0 : (⟨(i 0).val, (i 0).isLt⟩ : Fin 512) = ⟨16 * q + (y 0).val, by have : (y 0).val < 16 := (y 0).isLt; omega⟩ := Fin.ext hi0
  rw [e0, e1, e2]
  congr 1
  · funext t d; exact h0 ⟨(y 0).val, (y 0).isLt⟩ t d
  · funext d e; exact h1 _
  · funext e j; exact h2 _
  · funext j; exact h3 _

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the tokens' block index is the output's, on the first axis only; the
    projections and the bias sit at block 0. -/
theorem idx_facts : ∀ t : Fin cfg0.N,
    win0_0.index t (0 : Fin 3) = win0_4.index t (0 : Fin 3) ∧ win0_0.index t (1 : Fin 3) = 0 ∧ win0_0.index t (2 : Fin 3) = 0
    ∧ win0_4.index t (1 : Fin 3) = 0 ∧ win0_4.index t (2 : Fin 3) = 0 ∧ win0_4.index t (0 : Fin 3) ≤ 31
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every block of 16 windows is some point's. -/
theorem idx_onto : ∀ q : Fin 32, ∃ t : Fin cfg0.N, win0_4.index t = ![q.val, 0, 0] :=
  (by decide +kernel : ∀ q : Fin 32, ∃ t : Fin grid0.N, win0_4.index t = ![q.val, 0, 0])

/-- What point `t` writes back is block `t` of `G` of the arrays as the region finds them. -/
theorem flushed_eq (hb : BodyAt) (c : Dev nD) (t : Fin cfg0.N) :
    (dats m 0 c).flushed 4 t
      = ((cfg0.win 4).blk t).view.read (Elt Ideal) (G (V m c main_v6) (V m c main_v7) (V m c main_v8) (V m c main_v9)) := by
  show (cfg0.win 4).cut (grid0.coords t) ((dats m 0 c).after 4 t) = _
  rw [after0_4]
  unfold out0_4
  rw [View.canon_unit_zero hz3]
  simp only [View.ld_unit_zero (S := S16x64x1024) hz3, View.ld_unit_zero (S := S1024x1536) hz2,
    View.ld_unit_zero (S := S512x1024) hz2, View.ld_unit_zero (S := S1x1024) hz2]
  obtain ⟨f0, f1, f2, f3, f4, f5, g0, g1, g2, g3, g4, g5⟩ := idx_facts t
  funext y
  show k0_pay1 (k0_pay2 (iblk m c 0 t) (iblk m c 1 t) (iblk m c 2 t)) (iblk m c 3 t) y
      = G (V m c main_v6) (V m c main_v7) (V m c main_v8) (V m c main_v9) (((cfg0.win 4).blk t).view.emb y)
  refine block_eq hb _ _ _ _ _ _ _ _ (win0_4.index t (0 : Fin 3)) f5 ?_ ?_ ?_ ?_ y _ ?_ ?_ ?_
  · intro a tt d
    show V m c main_v6 (((cfg0.win 0).blk t).view.emb (ix3 a tt d)) = V m c main_v6 _
    refine congrArg (V m c main_v6) (funext fun ax => Fin.ext ?_)
    match ax with
    | ⟨0, _⟩ => show win0_0.index t (0 : Fin 3) * 16 + 1 * a.val = 16 * win0_4.index t (0 : Fin 3) + a.val; omega
    | ⟨1, _⟩ => show win0_0.index t (1 : Fin 3) * 64 + 1 * tt.val = tt.val; omega
    | ⟨2, _⟩ => show win0_0.index t (2 : Fin 3) * 1024 + 1 * d.val = d.val; omega
  · intro z
    show V m c main_v7 (((cfg0.win 1).blk t).view.emb z) = V m c main_v7 z
    refine congrArg (V m c main_v7) (funext fun ax => Fin.ext ?_)
    match ax with
    | ⟨0, _⟩ => show win0_1.index t (0 : Fin 2) * 1024 + 1 * (z 0).val = (z 0).val; omega
    | ⟨1, _⟩ => show win0_1.index t (1 : Fin 2) * 1536 + 1 * (z 1).val = (z 1).val; omega
  · intro z
    show V m c main_v8 (((cfg0.win 2).blk t).view.emb z) = V m c main_v8 z
    refine congrArg (V m c main_v8) (funext fun ax => Fin.ext ?_)
    match ax with
    | ⟨0, _⟩ => show win0_2.index t (0 : Fin 2) * 512 + 1 * (z 0).val = (z 0).val; omega
    | ⟨1, _⟩ => show win0_2.index t (1 : Fin 2) * 1024 + 1 * (z 1).val = (z 1).val; omega
  · intro z
    show V m c main_v9 (((cfg0.win 3).blk t).view.emb z) = V m c main_v9 z
    refine congrArg (V m c main_v9) (funext fun ax => Fin.ext ?_)
    match ax with
    | ⟨0, _⟩ => show win0_3.index t (0 : Fin 2) * 1 + 1 * (z 0).val = (z 0).val; omega
    | ⟨1, _⟩ => show win0_3.index t (1 : Fin 2) * 1024 + 1 * (z 1).val = (z 1).val; omega
  · show win0_4.index t (0 : Fin 3) * 16 + 1 * (y 0).val = 16 * win0_4.index t (0 : Fin 3) + (y 0).val; omega
  · show win0_4.index t (1 : Fin 3) * 64 + 1 * (y 1).val = (y 1).val; omega
  · show win0_4.index t (2 : Fin 3) * 1024 + 1 * (y 2).val = (y 2).val; omega

/-- An index of the array is in point `t`'s block iff each coordinate is in the block's range on its axis. -/
theorem mem_blk (t : Fin cfg0.N) (i : S512x64x1024.Idx) :
    i ∈ ((cfg0.win 4).blk t).view.set ↔ ∀ a : Fin 3, win0_4.index t a * S16x64x1024.size a ≤ (i a).val
      ∧ (i a).val < win0_4.index t a * S16x64x1024.size a + S16x64x1024.size a := by
  show i ∈ ((View.whole main_v10).slice (win0_4.rect t)).set ↔ _
  rw [View.set_slice_whole, Rect.mem_set_unit]
  exact Iff.rfl

/-- The blocks tile the array: window `n` is in the block of the point whose first block index is `n / 16`. -/
theorem cover (i : S512x64x1024.Idx) :
    ∃ t : Fin cfg0.N, (cfg0.win 4).flush t = true ∧ i ∈ ((cfg0.win 4).blk t).view.set := by
  have hi0 : (i 0).val < 512 := (i 0).isLt
  have hi1 : (i 1).val < 64 := (i 1).isLt
  have hi2 : (i 2).val < 1024 := (i 2).isLt
  obtain ⟨t, ht⟩ := idx_onto ⟨(i 0).val / 16, by omega⟩
  have q0 : win0_4.index t (0 : Fin 3) = (i 0).val / 16 := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 16 ≤ (i 0).val ∧ (i 0).val < win0_4.index t (0 : Fin 3) * 16 + 16; omega
  | ⟨1, _⟩ => show win0_4.index t (1 : Fin 3) * 64 ≤ (i 1).val ∧ (i 1).val < win0_4.index t (1 : Fin 3) * 64 + 64; omega
  | ⟨2, _⟩ => show win0_4.index t (2 : Fin 3) * 1024 ≤ (i 2).val ∧ (i 2).val < win0_4.index t (2 : Fin 3) * 1024 + 1024; omega

/-- The output array after the region: `G` of the arrays as the region finds them. -/
theorem final (hb : BodyAt) (c : Dev nD) :
    (dats m 0 c).arrAt 4 cfg0.N = G (V m c main_v6) (V m c main_v7) (V m c main_v8) (V m c main_v9) :=
  (dats m 0 c).arrAt_eq_of_cover 4 _ (fun t _ => flushed_eq m hb c t) cover

end Cert.KernelIdeal.Arr

end
-- ==== Proof.HostEnds.lean ====
/-
  The host operations around the region.

  Before it: the input image is cut into 512 windows of 64 tokens × 1024 features (two reshapes, a transpose, two
  reshapes, a transpose, a reshape — `tokens`), and the tokens, the two projections and the bias are handed to the
  region (format changes, the identity on extended reals; the bias as a 1 × 1024 row).  After it: the region's
  512 × 64 × 1024 result is laid back into an image (`relayout`, the inverse chain).  The reference applies the
  very same two chains around its own attention, so neither is ever opened: it is enough that both programs apply
  `relayout` to equal arrays built from `tokens` of equal inputs.
-/
import proofs.«114505_j8203387535714_2_alg».proof.Proof.Gen.KernelIdeal.Frame
import proofs.«114505_j8203387535714_2_alg».proof.Proof.Gen.ReferenceIdeal.Read
import Idealize.ShloMosaic.Lib.StableHlo.Run
import Idealize.ShloMosaic.Lib.ValueLayout
import Idealize.ShloMosaic.Lib.ValueIdx

noncomputable section

namespace Cert.KernelIdeal.Ends

open Cert.KernelIdeal Cert.KernelIdeal.Gen Idealize.ShloMosaic Idealize.ShloMosaic.TcCoe Idealize.SL.Sem Idealize.ShloMosaic.StableHlo
open Idealize.ShloMosaic.ValueIdx

/-- The image as 512 windows of 64 tokens × 1024 features. -/
def tokens (x : FVec Ideal S8x64x256x256 .f32) : FVec Ideal S512x64x1024 .f32 :=
  have v0 : FVec Ideal S8x64x8x32x8x32 .f32 := shapeCast S8x64x8x32x8x32 x shapeCasts_S8x64x256x256_S8x64x8x32x8x32
  have v1 : FVec Ideal S8x8x8x64x32x32 .f32 := transpose S8x8x8x64x32x32 [0, 2, 4, 1, 3, 5] v0 transposes_S8x64x8x32x8x32_S8x8x8x64x32x32_0_2_4_1_3_5
  have v2 : FVec Ideal S512x64x32x32 .f32 := shapeCast S512x64x32x32 v1 shapeCasts_S8x8x8x64x32x32_S512x64x32x32
  have v3 : FVec Ideal S512x64x8x4x8x4 .f32 := shapeCast S512x64x8x4x8x4 v2 shapeCasts_S512x64x32x32_S512x64x8x4x8x4
  have v4 : FVec Ideal S512x8x8x4x4x64 .f32 := transpose S512x8x8x4x4x64 [0, 2, 4, 3, 5, 1] v3 transposes_S512x64x8x4x8x4_S512x8x8x4x4x64_0_2_4_3_5_1
  have v5 : FVec Ideal S512x64x1024 .f32 := shapeCast S512x64x1024 v4 shapeCasts_S512x8x8x4x4x64_S512x64x1024
  v5

/-- 512 windows of 64 × 1024 values laid back into an image. -/
def relayout (y : FVec Ideal S512x64x1024 .f32) : FVec Ideal S8x64x256x256 .f32 :=
  have v11 : FVec Ideal S512x8x8x4x4x64 .f32 := shapeCast S512x8x8x4x4x64 y shapeCasts_S512x64x1024_S512x8x8x4x4x64
  have v12 : FVec Ideal S512x64x8x4x8x4 .f32 := transpose S512x64x8x4x8x4 [0, 5, 1, 3, 2, 4] v11 transposes_S512x8x8x4x4x64_S512x64x8x4x8x4_0_5_1_3_2_4
  have v13 : FVec Ideal S512x64x32x32 .f32 := shapeCast S512x64x32x32 v12 shapeCasts_S512x64x8x4x8x4_S512x64x32x32
  have v14 : FVec Ideal S8x8x8x64x32x32 .f32 := shapeCast S8x8x8x64x32x32 v13 shapeCasts_S512x64x32x32_S8x8x8x64x32x32
  have v15 : FVec Ideal S8x64x8x32x8x32 .f32 := transpose S8x64x8x32x8x32 [0, 3, 1, 4, 2, 5] v14 transposes_S8x8x8x64x32x32_S8x64x8x32x8x32_0_3_1_4_2_5
  have v16 : FVec Ideal S8x64x256x256 .f32 := shapeCast S8x64x256x256 v15 shapeCasts_S8x64x8x32x8x32_S8x64x256x256
  v16

variable (m : (ℓ : Loc nD τ sig) → Buf (Elt Ideal) ℓ)

/-- The region finds the tokens of the launched image in its first operand. -/
theorem V_tokens (c : Dev nD) :
    (V m c main_v6 : S512x64x1024.Idx → EReal) = tokens (m ((c : Thread nD τ).loc main_arg0)) := by
  show StableHlo.after hostOps0 (fun b => m (c, b)) (Proc.devRef .tc main_v6) = _
  after_results
  rfl

/-- The first projection as launched. -/
theorem V_wqkv (c : Dev nD) :
    (V m c main_v7 : S1024x1536.Idx → EReal) = m ((c : Thread nD τ).loc main_arg1) := by
  show StableHlo.after hostOps0 (fun b => m (c, b)) (Proc.devRef .tc main_v7) = _
  after_results
  rfl

/-- The second projection as launched. -/
theorem V_wout (c : Dev nD) :
    (V m c main_v8 : S512x1024.Idx → EReal) = m ((c : Thread nD τ).loc main_arg2) := by
  show StableHlo.after hostOps0 (fun b => m (c, b)) (Proc.devRef .tc main_v8) = _
  after_results
  rfl

/-- The bias as a 1 × 1024 row of the launched vector. -/
theorem V_bias (c : Dev nD) (j : Fin 1024) :
    (V m c main_v9 : S1x1024.Idx → EReal) (ix2 (0 : Fin 1) j) = m ((c : Thread nD τ).loc main_arg3) (ix1 j) := by
  have e : (V m c main_v9 : S1x1024.Idx → EReal) = shapeCast S1x1024 (m ((c : Thread nD τ).loc main_arg3)) shapeCasts_S1024_S1x1024 := by
    show StableHlo.after hostOps0 (fun b => m (c, b)) (Proc.devRef .tc main_v9) = _
    after_results
    rfl
  rw [e]
  exact shapeCast_a_1a_apply _ _ (0 : Fin 1) j

/-- The reference's tokens are the same chain. -/
theorem ref_tokens (x : FVec Ideal S8x64x256x256 .f32) : Cert.ReferenceIdeal.Read.val_main_v5 (F := Ideal) x = tokens x := by
  unfold Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0 tokens
  rfl

/-- The reference's result is the same re-layout of its attention output. -/
theorem ref_relayout (x0 : FVec Ideal S8x64x256x256 .f32) (x1 : FVec Ideal S1024x1536 .f32) (x2 : FVec Ideal S512x1024 .f32) (x3 : FVec Ideal S1024 .f32) :
    Cert.ReferenceIdeal.Read.val_main_v42 (F := Ideal) x0 x1 x2 x3 = relayout (Cert.ReferenceIdeal.Read.val_main_v36 (F := Ideal) x0 x1 x2 x3) := by
  unfold Cert.ReferenceIdeal.Read.val_main_v42 Cert.ReferenceIdeal.Read.val_main_v41 Cert.ReferenceIdeal.Read.val_main_v40
    Cert.ReferenceIdeal.Read.val_main_v39 Cert.ReferenceIdeal.Read.val_main_v38 Cert.ReferenceIdeal.Read.val_main_v37 relayout
  rfl

/-- After the region, the result buffer holds the re-layout of the region's output array. -/
theorem tail_eq (c : Dev nD) :
    Pipeline.afterTail₀ cfgs (dats m) 0 (V0 m) [hostOps1] c main_v16 = relayout ((dats m 0 c).arrAt 4 cfg0.N) := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.devRef .tc main_v10)
      = (dats m 0 c).arrAt 4 cfg0.N :=
    Pipeline.withArrays_arr spec0 launch0.win.arr_inj c _ _ 4
  rw [e]
  rfl

end Cert.KernelIdeal.Ends

end
-- ==== Proof.Bridge.lean ====
/-
  The two programs' results are one array.

  The kernel's result buffer is the re-layout of its region's output array, which is `G` of the tokens of the
  launched image, the launched projections and the launched bias; the reference's result is the same re-layout of
  its own attention output, which at window `n`, token `t`, feature `j` is the attention of window `n` of the same
  tokens.  Index by index the two arrays under the re-layout agree.
-/
import proofs.«114505_j8203387535714_2_alg».proof.Proof.KArray
import proofs.«114505_j8203387535714_2_alg».proof.Proof.HostEnds

noncomputable section

namespace Cert.KernelIdeal.Bridge

open Cert.KernelIdeal Cert.KernelIdeal.Gen Cert.KernelIdeal.Arr Cert.KernelIdeal.Ends
open Idealize.ShloMosaic Idealize.ShloMosaic.TcCoe Idealize.SL.Sem Idealize.ShloMosaic.ValueIdx Cert.Attn

/-- The reference's attention output, at window `n`, token `t`, feature `j`, is the attention of window `n`'s tokens. -/
def RefAt : Prop :=
  ∀ (x0 : FVec Ideal S8x64x256x256 .f32) (x1 : FVec Ideal S1024x1536 .f32) (x2 : FVec Ideal S512x1024 .f32) (x3 : FVec Ideal S1024 .f32)
    (n : Fin 512) (t : Fin 64) (j : Fin 1024),
    Cert.ReferenceIdeal.Read.val_main_v36 (F := Ideal) x0 x1 x2 x3 (ix3 n t j)
      = win (fun t d => Cert.ReferenceIdeal.Read.val_main_v5 (F := Ideal) x0 (ix3 n t d)) (fun d e => x1 (ix2 d e))
          (fun e j => x2 (ix2 e j)) (fun j => x3 (ix1 j)) t j

variable (m : (ℓ : Loc nD τ sig) → Buf (Elt Ideal) ℓ) (ρ : Dev nD → PrngReg)

/-- The kernel's run: the result buffer ends at the re-layout of `G` of the arrays the region finds, the arguments
    unchanged. -/
theorem kernel_run (hb : BodyAt) :
    θ_run defs (onTc (τ := τ) (main (F := Ideal))) ⟨m, fun _ => 0, ρ⟩ (fun r => ∀ c : Dev nD,
      r.2.mem ((c.tc : Thread nD τ).loc main_v16) = relayout (G (V m c main_v6) (V m c main_v7) (V m c main_v8) (V m c main_v9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v16 (Pipeline.mem_restRefs_of main_v16 (by decide) (by decide))).trans
        ((tail_eq m c).trans (congrArg relayout (final m hb c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- The reference's attention output of the launched arguments is `G` of the arrays the kernel's region finds. -/
theorem mid_eq (hr : RefAt) (c : Dev nD) :
    Cert.ReferenceIdeal.Read.val_main_v36 (F := Ideal) (m ((c.tc : Thread nD τ).loc main_arg0)) (m ((c.tc : Thread nD τ).loc main_arg1))
        (m ((c.tc : Thread nD τ).loc main_arg2)) (m ((c.tc : Thread nD τ).loc main_arg3))
      = G (V m c main_v6) (V m c main_v7) (V m c main_v8) (V m c main_v9) := by
  funext i
  have hi : i = ix3 (⟨(i 0).val, (i 0).isLt⟩ : Fin 512) (⟨(i 1).val, (i 1).isLt⟩ : Fin 64) (⟨(i 2).val, (i 2).isLt⟩ : Fin 1024) := by
    funext a; match a with | ⟨0, _⟩ => rfl | ⟨1, _⟩ => rfl | ⟨2, _⟩ => rfl
  refine (congrArg (Cert.ReferenceIdeal.Read.val_main_v36 (F := Ideal) _ _ _ _) hi).trans ((hr _ _ _ _ _ _ _).trans ?_)
  unfold G
  have e0 : ∀ (n : Fin 512) (t : Fin 64) (d : Fin 1024),
      Cert.ReferenceIdeal.Read.val_main_v5 (F := Ideal) (m ((c.tc : Thread nD τ).loc main_arg0)) (ix3 n t d) = V m c main_v6 (ix3 n t d) :=
    fun n t d => by rw [ref_tokens, V_tokens]
  have e1 : ∀ (d : Fin 1024) (e : Fin 1536), m ((c.tc : Thread nD τ).loc main_arg1) (ix2 d e) = V m c main_v7 (ix2 d e) :=
    fun d e => by rw [V_wqkv]
  have e2 : ∀ (e : Fin 512) (j : Fin 1024), m ((c.tc : Thread nD τ).loc main_arg2) (ix2 e j) = V m c main_v8 (ix2 e j) :=
    fun e j => by rw [V_wout]
  have e3 : ∀ j : Fin 1024, m ((c.tc : Thread nD τ).loc main_arg3) (ix1 j) = V m c main_v9 (ix2 (0 : Fin 1) j) :=
    fun j => (V_bias m c j).symm
  simp only [e0, e1, e2, e3]

end Cert.KernelIdeal.Bridge

end
-- ==== Proof.lean ====
/-
  Windowed multi-head attention as a block kernel against its array-level reference, on the extended reals.

  Both programs cut the input image into 512 windows of 64 tokens × 1024 features by the same chain of reshapes and
  transposes, and lay their 512 × 64 × 1024 result back into an image by the same inverse chain.  In between, the
  reference computes, for all windows at once, the projection to queries, keys and values, the scaled logits per
  head, their softmax with the row maximum subtracted, the contexts, the heads merged, the output projection and the
  bias.  The kernel does the same on 32 blocks of 16 windows, one block per grid point, with the rows of a block laid
  flat (1024 rows, 128 head matrices).  A window's result depends on that window's tokens only, so both are one
  function of (window, token, feature): `Cert.Attn.win` of the window's tokens.  The changes of float format the kernel
  makes are the identity on extended reals; every sum is a finite sum in a commutative monoid, so neither the order
  nor the grouping of a contraction matters, and no finiteness of the inputs is used.

  The pieces: Spec (the window function), KStages / KFront / KBack / KBody (the block body's stored value at an index
  is the window function of the block's window), KArray (the 32 written blocks tile the output array, which is
  therefore one function of the arrays the region finds), HostEnds (the chains around the region, shared with the
  reference), RefValue (the reference at an index is the window function), Bridge (the two results are the same
  re-layout of equal arrays).  The three frames are the programs' own runs; the idealization rewrote nothing.
-/
import proofs.«114505_j8203387535714_2_alg».proof.Defs
import proofs.«114505_j8203387535714_2_alg».proof.Proof.Gen.Kernel
import proofs.«114505_j8203387535714_2_alg».proof.Proof.Gen.Kernel.Skeleton
import proofs.«114505_j8203387535714_2_alg».proof.Proof.Gen.Kernel.Launch
import proofs.«114505_j8203387535714_2_alg».proof.Proof.Gen.Kernel.Points
import proofs.«114505_j8203387535714_2_alg».proof.Proof.Gen.Kernel.Frame
import proofs.«114505_j8203387535714_2_alg».proof.Proof.Gen.KernelIdeal
import proofs.«114505_j8203387535714_2_alg».proof.Proof.Gen.KernelIdeal.Skeleton
import proofs.«114505_j8203387535714_2_alg».proof.Proof.Gen.KernelIdeal.Launch
import proofs.«114505_j8203387535714_2_alg».proof.Proof.Gen.KernelIdeal.Points
import proofs.«114505_j8203387535714_2_alg».proof.Proof.Gen.KernelIdeal.Frame
import proofs.«114505_j8203387535714_2_alg».proof.Proof.Gen.ReferenceIdeal
import proofs.«114505_j8203387535714_2_alg».proof.Proof.Gen.Pre_finite_inputs
import proofs.«114505_j8203387535714_2_alg».proof.Proof.Gen.ReferenceIdeal.Run
import proofs.«114505_j8203387535714_2_alg».proof.Proof.Gen.ReferenceIdeal.Read
import proofs.«114505_j8203387535714_2_alg».proof.Proof.KBody
import proofs.«114505_j8203387535714_2_alg».proof.Proof.RefValue
import proofs.«114505_j8203387535714_2_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read on the extended reals. -/
theorem preserves : Cert.preserves_Kernel_KernelIdeal := trivial

/-- The block body at an index is the window attention of the block's window. -/
theorem body : Cert.KernelIdeal.Arr.BodyAt := fun x0 x1 x2 x3 a t j => Cert.KernelIdeal.Body.body_at x0 x1 x2 x3 a t j

/-- The reference at an index is the window attention of the window's tokens. -/
theorem reference : Cert.KernelIdeal.Bridge.RefAt := fun x0 x1 x2 x3 n t j => Cert.ReferenceIdeal.RefValue.ref_at x0 x1 x2 x3 n t j

/-- From memories agreeing on the arguments both programs end with the same image: the re-layout of the window
    attention of every window of the tokens. -/
theorem algebraic : Cert.algebraic_KernelIdeal_ReferenceIdeal := by
  intro m ρ m' ρ' _ hagree
  refine ⟨fun c => Cert.KernelIdeal.Ends.relayout
      (Cert.KernelIdeal.Arr.G (Cert.KernelIdeal.Gen.V m c Cert.KernelIdeal.main_v6) (Cert.KernelIdeal.Gen.V m c Cert.KernelIdeal.main_v7)
        (Cert.KernelIdeal.Gen.V m c Cert.KernelIdeal.main_v8) (Cert.KernelIdeal.Gen.V m c Cert.KernelIdeal.main_v9)),
    Cert.KernelIdeal.Bridge.kernel_run m ρ body, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2.1, (hagree c).2.2.2,
    Cert.KernelIdeal.Ends.ref_relayout]
  exact congrArg Cert.KernelIdeal.Ends.relayout (Cert.KernelIdeal.Bridge.mid_eq m reference c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
